-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256 .f32) (main_arg5 : FVec F S1x256 .f32) (main_arg6 : FVec F S1 .f32) (main_arg7 : FVec F S1 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S8x2048x256 .f32) (main_arg1 : FVec F S16x256 .f32) (main_arg2 : FVec F S16 .f32) (main_arg3 : FVec F S256x16 .f32) (main_arg4 : FVec F S256 .f32) (main_arg5 : FVec F S1x256 .f32) (main_arg6 : FVec F S1 .f32) (main_arg7 : FVec F S1 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_v13 main_v16
-- ==== Kernel.lean ====
abbrev S8x2048x256 : Shape := ⟨3, ![8, 2048, 256]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x256 : Shape := ⟨2, ![1, 256]⟩
abbrev S1 : Shape := ⟨1, ![1]⟩
abbrev S1x2048x256 : Shape := ⟨3, ![1, 2048, 256]⟩
abbrev S2048x16 : Shape := ⟨2, ![2048, 16]⟩
abbrev S2048x1 : Shape := ⟨2, ![2048, 1]⟩
abbrev S2048x256 : Shape := ⟨2, ![2048, 256]⟩
abbrev S1x16 : Shape := ⟨2, ![1, 16]⟩
abbrev S2048 : Shape := ⟨1, ![2048]⟩
abbrev S256x1 : Shape := ⟨2, ![256, 1]⟩
abbrev S1x1 : Shape := ⟨2, ![1, 1]⟩
abbrev S1x256x256 : Shape := ⟨3, ![1, 256, 256]⟩
abbrev S256x256 : Shape := ⟨2, ![256, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x2048x256, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1, .f32⟩
  | .hbm, ⟨8, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S16x256, .f32⟩
  | .local _ .vmem, ⟨3, _⟩ => ⟨S16, .f32⟩
  | .local _ .vmem, ⟨4, _⟩ => ⟨S256x16, .f32⟩
  | .local _ .vmem, ⟨5, _⟩ => ⟨S256, .f32⟩
  | .local _ .vmem, ⟨6, _⟩ => ⟨S1x256, .f32⟩
  | .local _ .vmem, ⟨7, _⟩ => ⟨S1, .f32⟩
  | .local _ .vmem, ⟨8, _⟩ => ⟨S1, .f32⟩
  | .local _ .vmem, ⟨9, _⟩ => ⟨S1x2048x256, .f32⟩
  | .local _ .vmem, ⟨10, _⟩ => ⟨S1x2048x256, .f32⟩
  | .local _ .vmem, ⟨11, _⟩ => ⟨S2048x16, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x256, .f32⟩
  | .local _ .vmem, ⟨16, _⟩ => ⟨S2048x1, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v54 : BitVec 32 := Scalar.addi c0_i32 c8_i32
  let c1_i32 : BitVec 32 := 1#32
  ⟨c0_i32, v54, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v85 : BitVec 32 := Scalar.muli arg16 c256_i32
  v85
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v85 : BitVec 32 := Scalar.muli arg16 c256_i32
  let v86 : BitVec 32 := v85
  let v87 : Index := Scalar.indexCast v86
  let c0_54 : Index := 0#32
  ![v87.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v85 : BitVec 32 := Scalar.muli arg16 c256_i32
  let v86 : BitVec 32 := v85
  let v89 : Index := Scalar.indexCast v86
  let c0_55 : Index := 0#32
  ![v89.toNat, 0]
@[reducible] def k0_t2_loop : Scf.Loop 32 :=
  let c0_i32_34 : BitVec 32 := 0#32
  let c8_i32_35 : BitVec 32 := 8#32
  let v63 : BitVec 32 := Scalar.addi c0_i32_34 c8_i32_35
  let c1_i32_36 : BitVec 32 := 1#32
  ⟨c0_i32_34, v63, c1_i32_36⟩
def k0_mult2 (k0_t2 : Fin k0_t2_loop.trips) : BitVec 32 :=
  let c0_i32_34 : BitVec 32 := 0#32
  let c1_i32_36 : BitVec 32 := 1#32
  let arg16 : BitVec 32 := Scf.iv c0_i32_34 c1_i32_36 k0_t2
  let c256_i32 : BitVec 32 := 256#32
  let v85 : BitVec 32 := Scalar.muli arg16 c256_i32
  v85
def k0_off3 (k0_t2 : Fin k0_t2_loop.trips) : Fin 2 → Nat :=
  let c0_i32_34 : BitVec 32 := 0#32
  let c1_i32_36 : BitVec 32 := 1#32
  let arg16 : BitVec 32 := Scf.iv c0_i32_34 c1_i32_36 k0_t2
  let c256_i32 : BitVec 32 := 256#32
  let v85 : BitVec 32 := Scalar.muli arg16 c256_i32
  let v86 : BitVec 32 := v85
  let v87 : Index := Scalar.indexCast v86
  let c0_54 : Index := 0#32
  ![v87.toNat, 0]
def k0_off4 (k0_t2 : Fin k0_t2_loop.trips) : Fin 2 → Nat :=
  let c0_i32_34 : BitVec 32 := 0#32
  let c1_i32_36 : BitVec 32 := 1#32
  let arg16 : BitVec 32 := Scf.iv c0_i32_34 c1_i32_36 k0_t2
  let c256_i32 : BitVec 32 := 256#32
  let v85 : BitVec 32 := Scalar.muli arg16 c256_i32
  let v86 : BitVec 32 := v85
  let v89 : Index := Scalar.indexCast v86
  let c0_55 : Index := 0#32
  ![v89.toNat, 0]
def k0_off5 (k0_t2 : Fin k0_t2_loop.trips) : Fin 3 → Nat :=
  let c0_58 : Index := 0#32
  let c0_i32_34 : BitVec 32 := 0#32
  let c1_i32_36 : BitVec 32 := 1#32
  let arg16 : BitVec 32 := Scf.iv c0_i32_34 c1_i32_36 k0_t2
  let c256_i32 : BitVec 32 := 256#32
  let v85 : BitVec 32 := Scalar.muli arg16 c256_i32
  let v86 : BitVec 32 := v85
  let v95 : Index := Scalar.indexCast v86
  let c0_59 : Index := 0#32
  ![0, v95.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S16x256_S16x256_0_0 : ∀ a, (![0, 0] : Fin 2 → Nat) a + S16x256.size a ≤ S16x256.size a
  h_S16x256 : 0 < S16x256.numel
  inb_S16_S16_0 : ∀ a, (![0] : Fin 1 → Nat) a + S16.size a ≤ S16.size a
  h_S16 : 0 < S16.numel
  bitsLt_bf16_f32 : FTy.bits .bf16 < FTy.bits .f32
  transposes_S16x256_p1_0_S256x16 : S16x256.Transposes [1, 0] S256x16
  shapeCasts_S16_S1x16 : S16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  reduces_S2048x16_S2048 : S2048x16.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  transposes_S256x16_p1_0_S16x256 : S256x16.Transposes [1, 0] S16x256
  shapeCasts_S256_S1x256 : S256.ShapeCasts S1x256
  broadcasts_S1x256_S2048x256 : S1x256.Broadcasts S2048x256
  inb_S1x256_S1x256_0_0 : ∀ a, (![0, 0] : Fin 2 → Nat) a + S1x256.size a ≤ S1x256.size a
  h_S1x256 : 0 < S1x256.numel
  inb_S1_S1_0 : ∀ a, (![0] : Fin 1 → Nat) a + S1.size a ≤ S1.size a
  h_S1 : 0 < S1.numel
  transposes_S1x256_p1_0_S256x1 : S1x256.Transposes [1, 0] S256x1
  shapeCasts_S1_S1x1 : S1.ShapeCasts S1x1
  broadcasts_S1x1_S2048x1 : S1x1.Broadcasts S2048x1
  h_S256x1 : 0 < S256x1.numel
  transposes_S256x1_p1_0_S1x256 : S256x1.Transposes [1, 0] S1x256
  broadcasts_S2048x1_S2048x256 : S2048x1.Broadcasts S2048x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  h_S1x256x256 : 0 < S1x256x256.numel
  shapeCasts_S1x256x256_S256x256 : S1x256x256.ShapeCasts S256x256
  inpos_S1_p0 : ∀ a, (![0] : Fin 1 → Nat) a < S1.size a
  shapeCasts_S2048x256_S1x2048x256 : S2048x256.ShapeCasts S1x2048x256
  dot_S2048x256_S256x16_S2048x16_1_0_0_1_n_n_wf : DotDims.WF S2048x256 S256x16 S2048x16 [1] [0] [0] [1] [] []
  dot_S2048x16_S16x256_S2048x256_1_0_0_1_n_n_wf : DotDims.WF S2048x16 S16x256 S2048x256 [1] [0] [0] [1] [] []
  dot_S2048x256_S256x1_S2048x1_1_0_0_1_n_n_wf : DotDims.WF S2048x256 S256x1 S2048x1 [1] [0] [0] [1] [] []
  dot_S2048x256_S256x256_S2048x256_1_0_0_1_n_n_wf : DotDims.WF S2048x256 S256x256 S2048x256 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x16.size a ≤ S2048x16.size a
  k0_off2_inb : ∀ k0_t1 : Fin k0_t1_loop.trips, ∀ a, (k0_off2 k0_t1) a + S256x1.size a ≤ S2048x1.size a
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S256x16.size a ≤ S2048x16.size a
  k0_off4_inb : ∀ k0_t2 : Fin k0_t2_loop.trips, ∀ a, (k0_off4 k0_t2) a + S256x1.size a ≤ S2048x1.size a
  k0_off5_inb : ∀ k0_t2 : Fin k0_t2_loop.trips, ∀ a, (k0_off5 k0_t2) a + S1x256x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x256.size a ≤ S8x2048x256.size a
  hwx0_8 : ∀ i : grid0.Coords, EltTy.bits .f32 = 32 ∨ (Rect.block (s := S8x2048x256) S1x2048x256.size (cc0_transform_8 i) (hinb0_8 i)).WholeWords (EltTy.packing .f32)

variable [Facts₀]

def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf
def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x256 : Shape := ⟨2, ![1, 256]⟩
abbrev S1 : Shape := ⟨1, ![1]⟩
abbrev S8x2048x16 : Shape := ⟨3, ![8, 2048, 16]⟩
abbrev S1x1x16 : Shape := ⟨3, ![1, 1, 16]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S1x1x256 : Shape := ⟨3, ![1, 1, 256]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1, .f32⟩
  | .hbm, ⟨8, _⟩ => ⟨S8x2048x16, .f32⟩
  | .hbm, ⟨9, _⟩ => ⟨S1x1x16, .f32⟩
  | .hbm, ⟨10, _⟩ => ⟨S8x2048x16, .f32⟩
  | .hbm, ⟨11, _⟩ => ⟨S8x2048x16, .f32⟩
  | .hbm, ⟨12, _⟩ => ⟨S8x2048x16, .f32⟩
  | .hbm, ⟨13, _⟩ => ⟨S_, .f32⟩
  | .hbm, ⟨14, _⟩ => ⟨S8x2048, .f32⟩
  | .hbm, ⟨15, _⟩ => ⟨S8x2048x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x256, .f32⟩
  | .hbm, ⟨36, _⟩ => ⟨S1x1x256, .f32⟩
  | .hbm, ⟨37, _⟩ => ⟨S8x2048x256, .f32⟩
  | .hbm, ⟨38, _⟩ => ⟨S8x2048x256, .f32⟩
  | .hbm, ⟨39, _⟩ => ⟨S_, .f32⟩
  | .hbm, ⟨40, _⟩ => ⟨S8x2048x256, .f32⟩
  | .hbm, ⟨41, _⟩ => ⟨S8x2048x256, .f32⟩
  | .hbm, ⟨42, _⟩ => ⟨S8x2048x1, .f32⟩
  | .hbm, ⟨43, _⟩ => ⟨S1x1x1, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048, .f32⟩
  | .hbm, ⟨55, _⟩ => ⟨S8x2048, .f32⟩
  | .hbm, ⟨56, _⟩ => ⟨S8x1x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048, .f32⟩
  | .hbm, ⟨61, _⟩ => ⟨S_, .f32⟩
  | .hbm, ⟨62, _⟩ => ⟨S8x2048, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x256, .f32⟩
  | .hbm, ⟨68, _⟩ => ⟨S_, .f32⟩
  | .hbm, ⟨69, _⟩ => ⟨S8x2048x256, .f32⟩
  | .hbm, ⟨70, _⟩ => ⟨S8x2048x256, .f32⟩
  | .hbm, ⟨71, _⟩ => ⟨S8x2048x256, .f32⟩
  | .hbm, ⟨72, _⟩ => ⟨S_, .f32⟩
  | .hbm, ⟨73, _⟩ => ⟨S8x2048x256, .f32⟩
  | .hbm, ⟨74, _⟩ => ⟨S8x2048x256, .f32⟩
  | .hbm, ⟨75, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S8x2048x16_0_1_2 : S1x1x16.BroadcastsInDim S8x2048x16 (![0, 1, 2] : Fin 3 → Fin S8x2048x16.rank)
  reducesTo_S8x2048x16_S8x2048_d2 : S8x2048x16.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  bcast_S_S8x2048x1 : S_.BroadcastsInDim S8x2048x1 (![] : Fin 0 → Fin S8x2048x1.rank)
  shapeCasts_S8x2048x1_S8x2048 : S8x2048x1.ShapeCasts S8x2048
  bcast_S_S8x2048 : S_.BroadcastsInDim S8x2048 (![] : Fin 0 → Fin S8x2048.rank)
  shapeCasts_S1_S_ : S1.ShapeCasts S_
  dot_S8x2048x256_S16x256_S8x2048x16_2_1_01_0_n_n_wf : DotDims.WF S8x2048x256 S16x256 S8x2048x16 [2] [1] [0, 1] [0] [] []
  dot_S8x2048x16_S8x2048x16_S8x2048x2048_2_2_1_1_0_0_wf : DotDims.WF S8x2048x16 S8x2048x16 S8x2048x2048 [2] [2] [1] [1] [0] [0]
  dot_S8x2048x16_S256x16_S8x2048x256_2_1_01_0_n_n_wf : DotDims.WF S8x2048x16 S256x16 S8x2048x256 [2] [1] [0, 1] [0] [] []
  dot_S8x2048x256_S1x256_S8x2048x1_2_1_01_0_n_n_wf : DotDims.WF S8x2048x256 S1x256 S8x2048x1 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S16x256_S8x2048x16_2_1_01_0_n_n : DotDims S8x2048x256 S16x256 S8x2048x16 where
  lhsContracting := [2]
  rhsContracting := [1]
  lhsNonContracting := [0, 1]
  rhsNonContracting := [0]
  lhsBatch := []
  rhsBatch := []
  wf := dot_S8x2048x256_S16x256_S8x2048x16_2_1_01_0_n_n_wf
def dot_S8x2048x16_S8x2048x16_S8x2048x2048_2_2_1_1_0_0 : DotDims S8x2048x16 S8x2048x16 S8x2048x2048 where
  lhsContracting := [2]
  rhsContracting := [2]
  lhsNonContracting := [1]
  rhsNonContracting := [1]
  lhsBatch := [0]
  rhsBatch := [0]
  wf := dot_S8x2048x16_S8x2048x16_S8x2048x2048_2_2_1_1_0_0_wf
def dot_S8x2048x16_S256x16_S8x2048x256_2_1_01_0_n_n : DotDims S8x2048x16 S256x16 S8x2048x256 where
  lhsContracting := [2]
  rhsContracting := [1]
  lhsNonContracting := [0, 1]
  rhsNonContracting := [0]
  lhsBatch := []
  rhsBatch := []
  wf := dot_S8x2048x16_S256x16_S8x2048x256_2_1_01_0_n_n_wf
def dot_S8x2048x256_S1x256_S8x2048x1_2_1_01_0_n_n : DotDims S8x2048x256 S1x256 S8x2048x1 where
  lhsContracting := [2]
  rhsContracting := [1]
  lhsNonContracting := [0, 1]
  rhsNonContracting := [0]
  lhsBatch := []
  rhsBatch := []
  wf := dot_S8x2048x256_S1x256_S8x2048x1_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KernelLoops.lean ====
/-
  The kernel body read as values: what its scratch buffers hold after each trip of its two column-tile loops, and what it
  stores into its output block, as pure functions of the input blocks — for any float instance.

  The body fills z, ‖z‖² and the gate π into scratch; the first loop adds, tile by tile, the kernel's row sums into q; the
  second adds the scaled kernel's row sums into one column and its product with the tile's rows of x into the accumulator;
  the last store combines them.  Every store is of a whole buffer, so a buffer's contents after a trip are the trip's
  payload of the contents before it: a recursion on the trip count.
-/
import proofs.«159826_j36816459661845_1_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.Sem

variable {F : FTy → Type} [FloatOps F]

/-! ## Zero offsets, whole-buffer loads and stores -/

theorem z1 : (![0] : Fin 1 → ℕ) = fun _ => 0 := funext fun a => by match a with | ⟨0, _⟩ => rfl
theorem z2 : (![0, 0] : Fin 2 → ℕ) = fun _ => 0 := funext fun a => by match a with | ⟨0, _⟩ => rfl | ⟨1, _⟩ => rfl
theorem z3 : (![0, 0, 0] : Fin 3 → ℕ) = fun _ => 0 :=
  funext fun a => by match a with | ⟨0, _⟩ => rfl | ⟨1, _⟩ => rfl | ⟨2, _⟩ => rfl

/-- A store of a whole buffer, made last, reads back as its payload whatever was stored before. -/
theorem read_store_last {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have e := View.read_writes_cons_emb v f (Rect.whole S) w L y
  rw [Rect.emb_whole_apply] at e; exact e

/-- A load of a whole buffer reads its contents. -/
theorem readAt_whole {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

theorem readAt_whole1 {sig : RefSig} {κ : Kind} {sp : Space} {d : Fin 1 → ℕ} {e : EltTy} {Val : EltTy → Type}
    (v : View sig κ sp ⟨1, d⟩ e) (f : v.ty.Contents Val) (inb : ∀ a, (![0] : Fin 1 → ℕ) a + d a ≤ d a) :
    v.readAt Val (Rect.unit (s := ⟨1, d⟩) ![0] d inb).toLoadRect f = v.read Val f := readAt_whole (S := ⟨1, d⟩) v f z1 inb
theorem readAt_whole2 {sig : RefSig} {κ : Kind} {sp : Space} {d : Fin 2 → ℕ} {e : EltTy} {Val : EltTy → Type}
    (v : View sig κ sp ⟨2, d⟩ e) (f : v.ty.Contents Val) (inb : ∀ a, (![0, 0] : Fin 2 → ℕ) a + d a ≤ d a) :
    v.readAt Val (Rect.unit (s := ⟨2, d⟩) ![0, 0] d inb).toLoadRect f = v.read Val f := readAt_whole (S := ⟨2, d⟩) v f z2 inb
theorem readAt_whole3 {sig : RefSig} {κ : Kind} {sp : Space} {d : Fin 3 → ℕ} {e : EltTy} {Val : EltTy → Type}
    (v : View sig κ sp ⟨3, d⟩ e) (f : v.ty.Contents Val) (inb : ∀ a, (![0, 0, 0] : Fin 3 → ℕ) a + d a ≤ d a) :
    v.readAt Val (Rect.unit (s := ⟨3, d⟩) ![0, 0, 0] d inb).toLoadRect f = v.read Val f := readAt_whole (S := ⟨3, d⟩) v f z3 inb
theorem read_store_one2 {sig : RefSig} {κ : Kind} {sp : Space} {d : Fin 2 → ℕ} {e : EltTy} {Val : EltTy → Type}
    (v : View sig κ sp ⟨2, d⟩ e) (f : v.ty.Contents Val) (inb : ∀ a, (![0, 0] : Fin 2 → ℕ) a + d a ≤ d a)
    (w : (⟨2, d⟩ : Shape).Idx → Val e) :
    v.read Val (v.writes Val f [⟨Rect.unit (s := ⟨2, d⟩) ![0, 0] d inb, w⟩]) = w := read_store_last (S := ⟨2, d⟩) v f z2 inb w []

/-! ## The first loop: the kernel's row sums, tile by tile -/

/-- What the q column holds after the first `k` column tiles, from z and ‖z‖². -/
def qAfter (Z : Vec F S2048x16 .f32) (SQ : Vec F S2048x1 .f32) : ℕ → FVec F S2048x1 .f32
  | 0 => k0_pay11
  | k + 1 => if h : k < k0_t1_loop.trips then
      k0_pay12 (View.ld Z (Rect.unit (k0_off1 ⟨k, h⟩) S256x16.size (k0_off1_inb ⟨k, h⟩)))
        (View.ld SQ (Rect.unit (k0_off2 ⟨k, h⟩) S256x1.size (k0_off2_inb ⟨k, h⟩))) Z SQ (qAfter Z SQ k)
    else qAfter Z SQ k

theorem qAfter_succ (Z : Vec F S2048x16 .f32) (SQ : Vec F S2048x1 .f32) (k : Fin k0_t1_loop.trips) :
    qAfter Z SQ (k.val + 1) = k0_pay12 (View.ld Z (Rect.unit (k0_off1 k) S256x16.size (k0_off1_inb k)))
        (View.ld SQ (Rect.unit (k0_off2 k) S256x1.size (k0_off2_inb k))) Z SQ (qAfter Z SQ k.val) := by
  rw [qAfter]; exact dif_pos k.isLt

section loop1
variable {𝒱 : Variants} {bd : Option 𝒱.V} {c : Dev nD} {i : grid0.Coords} {arg1 : Memref sig .tc .vmem S1x2048x256 .f32} {harg1 : arg1.IsWhole} {arg2 : Memref sig .tc .vmem S16x256 .f32} {harg2 : arg2.IsWhole} {arg3 : Memref sig .tc .vmem S16 .f32} {harg3 : arg3.IsWhole} {arg4 : Memref sig .tc .vmem S256x16 .f32} {harg4 : arg4.IsWhole} {arg5 : Memref sig .tc .vmem S256 .f32} {harg5 : arg5.IsWhole} {arg6 : Memref sig .tc .vmem S1x256 .f32} {harg6 : arg6.IsWhole} {arg7 : Memref sig .tc .vmem S1 .f32} {harg7 : arg7.IsWhole} {arg8 : Memref sig .tc .vmem S1 .f32} {harg8 : arg8.IsWhole} {arg9 : Memref sig .tc .vmem S1x2048x256 .f32} {harg9 : arg9.IsWhole} {arg10 : Memref sig .tc .vmem S2048x16 .f32} {harg10 : arg10.IsWhole} {arg11 : Memref sig .tc .vmem S2048x1 .f32} {harg11 : arg11.IsWhole} {arg12 : Memref sig .tc .vmem S2048x1 .f32} {harg12 : arg12.IsWhole} {arg13 : Memref sig .tc .vmem S2048x1 .f32} {harg13 : arg13.IsWhole} {arg14 : Memref sig .tc .vmem S2048x256 .f32} {harg14 : arg14.IsWhole} {arg15 : Memref sig .tc .vmem S2048x1 .f32} {harg15 : arg15.IsWhole} {v32 : Vec F S1 .f32} {v33 : FVec F S2048x256 .bf16} {v35 : FVec F S256x1 .bf16} {cst_18 : FVec F S2048x1 .f32}
  {X_arg10 : BufTy.Contents (Elt F) arg10.view.ty} {X_arg11 : BufTy.Contents (Elt F) arg11.view.ty}

/-- One trip of the first loop stores one whole column: its payload of the tile's rows of z and ‖z‖², of z and ‖z‖²
    whole, and of the column as the trip finds it. -/
theorem trip1_pieces (k : Fin k0_t1_loop.trips) (f_arg13 : BufTy.Contents (Elt F) arg13.view.ty) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg10 X_arg11 k f_arg13
      = [⟨Rect.unit ![0, 0] S2048x1.size inb_S2048x1_S2048x1_0_0,
          k0_pay12 (View.ld (arg10.view.read (Elt F) X_arg10) (Rect.unit (k0_off1 k) S256x16.size (k0_off1_inb k)))
            (View.ld (arg11.view.read (Elt F) X_arg11) (Rect.unit (k0_off2 k) S256x1.size (k0_off2_inb k)))
            (arg10.view.readAt (Elt F) (Rect.unit ![0, 0] S2048x16.size inb_S2048x16_S2048x16_0_0).toLoadRect X_arg10)
            (arg11.view.readAt (Elt F) (Rect.unit ![0, 0] S2048x1.size inb_S2048x1_S2048x1_0_0).toLoadRect X_arg11)
            (arg13.view.readAt (Elt F) (Rect.unit ![0, 0] S2048x1.size inb_S2048x1_S2048x1_0_0).toLoadRect f_arg13)⟩] := by
  unfold tripL_k0_t1
  rw [trip_k0_t1.eq_1]
  rfl

/-- After `k` trips the q column holds `qAfter … k`. -/
theorem q_contents (G_arg13 : BufTy.Contents (Elt F) arg13.view.ty) (hG : arg13.view.read (Elt F) G_arg13 = k0_pay11) :
    ∀ k, k ≤ k0_t1_loop.trips →
      arg13.view.read (Elt F) (arg13.view.writes (Elt F) G_arg13
        (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg10 X_arg11 G_arg13 k))
      = qAfter (arg10.view.read (Elt F) X_arg10) (arg11.view.read (Elt F) X_arg11) k
  | 0, _ => by
    show arg13.view.read (Elt F) (arg13.view.writes (Elt F) G_arg13 []) = _
    rw [View.writes_nil]; exact hG
  | k + 1, hk => by
    have ih := q_contents G_arg13 hG k (Nat.le_of_succ_le hk)
    have hs := pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg10 X_arg11 G_arg13 ⟨k, hk⟩
    have hq := qAfter_succ (arg10.view.read (Elt F) X_arg10) (arg11.view.read (Elt F) X_arg11) ⟨k, hk⟩
    rw [show k + 1 = (⟨k, hk⟩ : Fin k0_t1_loop.trips).val + 1 from rfl, hs, hq, trip1_pieces, List.singleton_append,
      read_store_last (S := S2048x1) _ _ z2, readAt_whole (S := S2048x16) _ _ z2, readAt_whole (S := S2048x1) _ _ z2,
      readAt_whole (S := S2048x1) _ _ z2]
    exact congrArg _ ih

end loop1

/-! ## The second loop: the scaled kernel's row sums and its product with x, tile by tile -/

/-- What the accumulator and the row-sum column hold after the first `k` column tiles, from the x block, z, ‖z‖², the gate
    π and the kernel's row sums q. -/
def accRowAfter (X : Vec F S1x2048x256 .f32) (Z : Vec F S2048x16 .f32) (SQ PIV Q : Vec F S2048x1 .f32) :
    ℕ → FVec F S2048x256 .f32 × FVec F S2048x1 .f32
  | 0 => (k0_pay13, k0_pay14)
  | k + 1 => if h : k < k0_t2_loop.trips then
      (k0_pay16 (k0_pay2 (View.ld X (Rect.unit (k0_off5 ⟨k, h⟩) S1x256x256.size (k0_off5_inb ⟨k, h⟩))))
          (k0_pay3 (View.ld Z (Rect.unit (k0_off3 ⟨k, h⟩) S256x16.size (k0_off3_inb ⟨k, h⟩))) (View.ld SQ (Rect.unit (k0_off4 ⟨k, h⟩) S256x1.size (k0_off4_inb ⟨k, h⟩)))
            (View.ld PIV (Rect.unit (k0_off4 ⟨k, h⟩) S256x1.size (k0_off4_inb ⟨k, h⟩))) (View.ld Q (Rect.unit (k0_off4 ⟨k, h⟩) S256x1.size (k0_off4_inb ⟨k, h⟩))) Z SQ)
          (accRowAfter X Z SQ PIV Q k).1,
        k0_pay15 (k0_pay4 (View.ld Z (Rect.unit (k0_off3 ⟨k, h⟩) S256x16.size (k0_off3_inb ⟨k, h⟩))) (View.ld SQ (Rect.unit (k0_off4 ⟨k, h⟩) S256x1.size (k0_off4_inb ⟨k, h⟩)))
            (View.ld PIV (Rect.unit (k0_off4 ⟨k, h⟩) S256x1.size (k0_off4_inb ⟨k, h⟩))) (View.ld Q (Rect.unit (k0_off4 ⟨k, h⟩) S256x1.size (k0_off4_inb ⟨k, h⟩))) Z SQ
            (accRowAfter X Z SQ PIV Q k).2))
    else accRowAfter X Z SQ PIV Q k

theorem accRowAfter_succ (X : Vec F S1x2048x256 .f32) (Z : Vec F S2048x16 .f32) (SQ PIV Q : Vec F S2048x1 .f32)
    (k : Fin k0_t2_loop.trips) :
    accRowAfter X Z SQ PIV Q (k.val + 1) =
      (k0_pay16 (k0_pay2 (View.ld X (Rect.unit (k0_off5 k) S1x256x256.size (k0_off5_inb k))))
          (k0_pay3 (View.ld Z (Rect.unit (k0_off3 k) S256x16.size (k0_off3_inb k))) (View.ld SQ (Rect.unit (k0_off4 k) S256x1.size (k0_off4_inb k)))
            (View.ld PIV (Rect.unit (k0_off4 k) S256x1.size (k0_off4_inb k))) (View.ld Q (Rect.unit (k0_off4 k) S256x1.size (k0_off4_inb k))) Z SQ)
          (accRowAfter X Z SQ PIV Q k.val).1,
        k0_pay15 (k0_pay4 (View.ld Z (Rect.unit (k0_off3 k) S256x16.size (k0_off3_inb k))) (View.ld SQ (Rect.unit (k0_off4 k) S256x1.size (k0_off4_inb k)))
            (View.ld PIV (Rect.unit (k0_off4 k) S256x1.size (k0_off4_inb k))) (View.ld Q (Rect.unit (k0_off4 k) S256x1.size (k0_off4_inb k))) Z SQ
            (accRowAfter X Z SQ PIV Q k.val).2)) := by
  rw [accRowAfter]; exact dif_pos k.isLt

section loop2
variable {𝒱 : Variants} {bd : Option 𝒱.V} {c : Dev nD} {i : grid0.Coords} {arg1 : Memref sig .tc .vmem S1x2048x256 .f32} {harg1 : arg1.IsWhole} {arg2 : Memref sig .tc .vmem S16x256 .f32} {harg2 : arg2.IsWhole} {arg3 : Memref sig .tc .vmem S16 .f32} {harg3 : arg3.IsWhole} {arg4 : Memref sig .tc .vmem S256x16 .f32} {harg4 : arg4.IsWhole} {arg5 : Memref sig .tc .vmem S256 .f32} {harg5 : arg5.IsWhole} {arg6 : Memref sig .tc .vmem S1x256 .f32} {harg6 : arg6.IsWhole} {arg7 : Memref sig .tc .vmem S1 .f32} {harg7 : arg7.IsWhole} {arg8 : Memref sig .tc .vmem S1 .f32} {harg8 : arg8.IsWhole} {arg9 : Memref sig .tc .vmem S1x2048x256 .f32} {harg9 : arg9.IsWhole} {arg10 : Memref sig .tc .vmem S2048x16 .f32} {harg10 : arg10.IsWhole} {arg11 : Memref sig .tc .vmem S2048x1 .f32} {harg11 : arg11.IsWhole} {arg12 : Memref sig .tc .vmem S2048x1 .f32} {harg12 : arg12.IsWhole} {arg13 : Memref sig .tc .vmem S2048x1 .f32} {harg13 : arg13.IsWhole} {arg14 : Memref sig .tc .vmem S2048x256 .f32} {harg14 : arg14.IsWhole} {arg15 : Memref sig .tc .vmem S2048x1 .f32} {harg15 : arg15.IsWhole} {v32 : Vec F S1 .f32} {v33 : FVec F S2048x256 .bf16} {v35 : FVec F S256x1 .bf16} {cst_18 : FVec F S2048x1 .f32}
  {X_arg1 : BufTy.Contents (Elt F) arg1.view.ty} {X_arg10 : BufTy.Contents (Elt F) arg10.view.ty}
  {X_arg11 : BufTy.Contents (Elt F) arg11.view.ty} {X_arg12 : BufTy.Contents (Elt F) arg12.view.ty}
  {X_arg13 : BufTy.Contents (Elt F) arg13.view.ty}

/-- One trip of the second loop stores the accumulator and the row-sum column whole. -/
theorem trip2_pieces (k : Fin k0_t2_loop.trips) (f_arg14 : BufTy.Contents (Elt F) arg14.view.ty)
    (f_arg15 : BufTy.Contents (Elt F) arg15.view.ty) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg1 X_arg10 X_arg11 X_arg12 X_arg13 k f_arg14 f_arg15
      = ([⟨Rect.unit ![0, 0] S2048x256.size inb_S2048x256_S2048x256_0_0,
          k0_pay16 (k0_pay2 (View.ld (arg1.view.read (Elt F) X_arg1) (Rect.unit (k0_off5 k) S1x256x256.size (k0_off5_inb k))))
            (k0_pay3 (View.ld (arg10.view.read (Elt F) X_arg10) (Rect.unit (k0_off3 k) S256x16.size (k0_off3_inb k)))
              (View.ld (arg11.view.read (Elt F) X_arg11) (Rect.unit (k0_off4 k) S256x1.size (k0_off4_inb k)))
              (View.ld (arg12.view.read (Elt F) X_arg12) (Rect.unit (k0_off4 k) S256x1.size (k0_off4_inb k)))
              (View.ld (arg13.view.read (Elt F) X_arg13) (Rect.unit (k0_off4 k) S256x1.size (k0_off4_inb k)))
              (arg10.view.readAt (Elt F) (Rect.unit ![0, 0] S2048x16.size inb_S2048x16_S2048x16_0_0).toLoadRect X_arg10)
              (arg11.view.readAt (Elt F) (Rect.unit ![0, 0] S2048x1.size inb_S2048x1_S2048x1_0_0).toLoadRect X_arg11))
            (arg14.view.readAt (Elt F) (Rect.unit ![0, 0] S2048x256.size inb_S2048x256_S2048x256_0_0).toLoadRect f_arg14)⟩],
        [⟨Rect.unit ![0, 0] S2048x1.size inb_S2048x1_S2048x1_0_0,
          k0_pay15 (k0_pay4 (View.ld (arg10.view.read (Elt F) X_arg10) (Rect.unit (k0_off3 k) S256x16.size (k0_off3_inb k)))
              (View.ld (arg11.view.read (Elt F) X_arg11) (Rect.unit (k0_off4 k) S256x1.size (k0_off4_inb k)))
              (View.ld (arg12.view.read (Elt F) X_arg12) (Rect.unit (k0_off4 k) S256x1.size (k0_off4_inb k)))
              (View.ld (arg13.view.read (Elt F) X_arg13) (Rect.unit (k0_off4 k) S256x1.size (k0_off4_inb k)))
              (arg10.view.readAt (Elt F) (Rect.unit ![0, 0] S2048x16.size inb_S2048x16_S2048x16_0_0).toLoadRect X_arg10)
              (arg11.view.readAt (Elt F) (Rect.unit ![0, 0] S2048x1.size inb_S2048x1_S2048x1_0_0).toLoadRect X_arg11)
              (arg15.view.readAt (Elt F) (Rect.unit ![0, 0] S2048x1.size inb_S2048x1_S2048x1_0_0).toLoadRect f_arg15))⟩]) := by
  unfold tripL_k0_t2
  rw [trip_k0_t2.eq_1]
  dsimp only
  unfold trip_k0_t2.sl.r trip_k0_t2.sl.r_1 trip_k0_t2.sl.r_2
  rfl

/-- After `k` trips the accumulator and the row-sum column hold `accRowAfter … k`. -/
theorem accRow_contents (G_arg14 : BufTy.Contents (Elt F) arg14.view.ty) (G_arg15 : BufTy.Contents (Elt F) arg15.view.ty)
    (hG14 : arg14.view.read (Elt F) G_arg14 = k0_pay13) (hG15 : arg15.view.read (Elt F) G_arg15 = k0_pay14) :
    ∀ k, k ≤ k0_t2_loop.trips →
      arg14.view.read (Elt F) (arg14.view.writes (Elt F) G_arg14
          (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg1 X_arg10 X_arg11 X_arg12 X_arg13 G_arg14 G_arg15 k).1)
        = (accRowAfter (arg1.view.read (Elt F) X_arg1) (arg10.view.read (Elt F) X_arg10) (arg11.view.read (Elt F) X_arg11)
            (arg12.view.read (Elt F) X_arg12) (arg13.view.read (Elt F) X_arg13) k).1
      ∧ arg15.view.read (Elt F) (arg15.view.writes (Elt F) G_arg15
          (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg1 X_arg10 X_arg11 X_arg12 X_arg13 G_arg14 G_arg15 k).2)
        = (accRowAfter (arg1.view.read (Elt F) X_arg1) (arg10.view.read (Elt F) X_arg10) (arg11.view.read (Elt F) X_arg11)
            (arg12.view.read (Elt F) X_arg12) (arg13.view.read (Elt F) X_arg13) k).2
  | 0, _ => by
    constructor
    · show arg14.view.read (Elt F) (arg14.view.writes (Elt F) G_arg14 []) = _
      rw [View.writes_nil]; exact hG14
    · show arg15.view.read (Elt F) (arg15.view.writes (Elt F) G_arg15 []) = _
      rw [View.writes_nil]; exact hG15
  | k + 1, hk => by
    have ih := accRow_contents G_arg14 G_arg15 hG14 hG15 k (Nat.le_of_succ_le hk)
    have hs := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 v33 v35 cst_18 X_arg1 X_arg10 X_arg11 X_arg12 X_arg13 G_arg14 G_arg15 ⟨k, hk⟩
    have hq := accRowAfter_succ (arg1.view.read (Elt F) X_arg1) (arg10.view.read (Elt F) X_arg10)
      (arg11.view.read (Elt F) X_arg11) (arg12.view.read (Elt F) X_arg12) (arg13.view.read (Elt F) X_arg13) ⟨k, hk⟩
    rw [show k + 1 = (⟨k, hk⟩ : Fin k0_t2_loop.trips).val + 1 from rfl, hs, hq, trip2_pieces]
    dsimp only
    rw [List.singleton_append, List.singleton_append, read_store_last (S := S2048x256) _ _ z2,
      read_store_last (S := S2048x1) _ _ z2, readAt_whole (S := S2048x16) _ _ z2, readAt_whole (S := S2048x1) _ _ z2,
      readAt_whole (S := S2048x256) _ _ z2, readAt_whole (S := S2048x1) _ _ z2]
    exact ⟨by rw [ih.1], by rw [ih.2]⟩

end loop2

/-! ## The whole body -/

/-- What the body stores into its output block, from its eight input blocks. -/
def bodyOut (x0 : Vec F S1x2048x256 .f32) (x1 : Vec F S16x256 .f32) (x2 : Vec F S16 .f32) (x3 : Vec F S256x16 .f32)
    (x4 : Vec F S256 .f32) (x5 : Vec F S1x256 .f32) (x6 : Vec F S1 .f32) (x7 : Vec F S1 .f32) : FVec F S1x2048x256 .f32 :=
  let Z : FVec F S2048x16 .f32 := k0_pay6 x0 x1 x2
  let SQ : FVec F S2048x1 .f32 := k0_pay7 x0 x1 x2
  let PIV : FVec F S2048x1 .f32 := k0_pay10 x6 (k0_pay8 x0 x1 x2 x3 x4) (k0_pay9 x5) (constant S2048x1 .f32 0x00000000#32)
  let Q : FVec F S2048x1 .f32 := qAfter Z SQ k0_t1_loop.trips
  let AR := accRowAfter x0 Z SQ PIV Q k0_t2_loop.trips
  k0_pay1 AR.2 (Scalar.ofBits .f32 0x3727C5AC#32) AR.1 x0 x7 x0

theorem out_eq_bodyOut (c : Dev nD) (i : grid0.Coords) (arg1 : Memref sig .tc .vmem S1x2048x256 .f32) (harg1 : arg1.IsWhole) (arg2 : Memref sig .tc .vmem S16x256 .f32) (harg2 : arg2.IsWhole) (arg3 : Memref sig .tc .vmem S16 .f32) (harg3 : arg3.IsWhole) (arg4 : Memref sig .tc .vmem S256x16 .f32) (harg4 : arg4.IsWhole) (arg5 : Memref sig .tc .vmem S256 .f32) (harg5 : arg5.IsWhole) (arg6 : Memref sig .tc .vmem S1x256 .f32) (harg6 : arg6.IsWhole) (arg7 : Memref sig .tc .vmem S1 .f32) (harg7 : arg7.IsWhole) (arg8 : Memref sig .tc .vmem S1 .f32) (harg8 : arg8.IsWhole) (arg9 : Memref sig .tc .vmem S1x2048x256 .f32) (harg9 : arg9.IsWhole) (arg10 : Memref sig .tc .vmem S2048x16 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x256 .f32) (harg14 : arg14.IsWhole) (arg15 : Memref sig .tc .vmem S2048x1 .f32) (harg15 : arg15.IsWhole)
    (x0 : Vec F S1x2048x256 .f32) (x1 : Vec F S16x256 .f32) (x2 : Vec F S16 .f32) (x3 : Vec F S256x16 .f32)
    (x4 : Vec F S256 .f32) (x5 : Vec F S1x256 .f32) (x6 : Vec F S1 .f32) (x7 : Vec F S1 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = bodyOut x0 x1 x2 x3 x4 x5 x6 x7 := by
  unfold out0_A_8
  unfold kernelRun0_A
  dsimp only
  sl_unfold_words
  rw [read_store_last (S := S1x2048x256) _ _ z3]
  simp only [View.writes_append, readAt_whole1, readAt_whole2, readAt_whole3]
  rw [(accRow_contents _ _ (read_store_one2 _ _ _ _) (read_store_one2 _ _ _ _) _ (Nat.le_refl _)).1,
    (accRow_contents _ _ (read_store_one2 _ _ _ _) (read_store_one2 _ _ _ _) _ (Nat.le_refl _)).2,
    q_contents _ (read_store_one2 _ _ _ _) _ (Nat.le_refl _)]
  simp only [read_store_one2, Memref.IsWhole.read_unread]
  rfl

end Cert.KernelIdeal.Body

end
-- ==== Proof.Spec.lean ====
/-
  The diffusion-map layer as a function of its arguments, for one batch slab, on the extended reals.

  With x an N×F slab (N = 2048, F = 256), the layer projects each row to z = x·Wᵀ + b (L = 16 coordinates), forms the
  Gaussian kernel k(n,m) = exp(-max(‖z n‖² + ‖z m‖² - 2⟨z n, z m⟩, 0)), its row sums q, a sigmoid gate π(z) from a
  two-layer perceptron, the column-scaled kernel k̃(n,m) = k(n,m)·π(m)/q(m), its row sums plus ε, and returns
  x + dt·(4·D⁻¹k̃x - x).  Two spellings of the last step are stated: the quotient of the accumulated product by the row
  sum (`outK`), and the product of the row-normalised kernel with x (`outR`).
-/
import Idealize.ShloMosaic.PureOps.Ideal
import Idealize.ShloMosaic.Lib.ValueIdx

noncomputable section

namespace Tmd

open Idealize.ShloMosaic

/-- The float words the two programs share, read as extended reals: 2, 4 and the regulariser ε = f32(1e-5). -/
abbrev two : EReal := Ideal.ofBits .f32 0x40000000#32
abbrev four : EReal := Ideal.ofBits .f32 0x40800000#32
abbrev eps : EReal := Ideal.ofBits .f32 0x3727C5AC#32

variable (X : Fin 2048 → Fin 256 → EReal) (PW : Fin 16 → Fin 256 → EReal) (PB : Fin 16 → EReal)
  (W1 : Fin 256 → Fin 16 → EReal) (B1 : Fin 256 → EReal) (W2 : Fin 256 → EReal) (B2 DT : EReal)

/-- The projection z = x·Wᵀ + b. -/
def z (n : Fin 2048) (l : Fin 16) : EReal := (∑ f : Fin 256, X n f * PW l f) + PB l

/-- ‖z n‖². -/
def sq (n : Fin 2048) : EReal := ∑ l : Fin 16, z X PW PB n l * z X PW PB n l

/-- ⟨z n, z m⟩. -/
def gram (n m : Fin 2048) : EReal := ∑ l : Fin 16, z X PW PB n l * z X PW PB m l

/-- The clamped squared distance. -/
def d2 (n m : Fin 2048) : EReal := max (sq X PW PB n + sq X PW PB m - two * gram X PW PB n m) 0

/-- The Gaussian kernel. -/
def kern (n m : Fin 2048) : EReal := Ideal.exp (-(d2 X PW PB n m))

/-- Its row sums. -/
def q (n : Fin 2048) : EReal := ∑ m : Fin 2048, kern X PW PB n m

/-- The perceptron's hidden layer, after the ReLU. -/
def hid (n : Fin 2048) (f : Fin 256) : EReal := max ((∑ l : Fin 16, z X PW PB n l * W1 f l) + B1 f) 0

/-- The gate's logit. -/
def logit (n : Fin 2048) : EReal := (∑ f : Fin 256, hid X PW PB W1 B1 n f * W2 f) + B2

/-- The sigmoid gate π. -/
def piv (n : Fin 2048) : EReal := Ideal.div 1 (1 + Ideal.exp (-(logit X PW PB W1 B1 W2 B2 n)))

/-- The column scale π(m)/q(m). -/
def scale (m : Fin 2048) : EReal := Ideal.div (piv X PW PB W1 B1 W2 B2 m) (q X PW PB m)

/-- The column-scaled kernel k̃. -/
def kt (n m : Fin 2048) : EReal := kern X PW PB n m * scale X PW PB W1 B1 W2 B2 m

/-- Its row sums plus ε: the diagonal of D̃. -/
def row (n : Fin 2048) : EReal := (∑ m : Fin 2048, kt X PW PB W1 B1 W2 B2 n m) + eps

/-- The layer with the quotient taken AFTER the product with x. -/
def outK (n : Fin 2048) (f : Fin 256) : EReal :=
  X n f + DT * (four * Ideal.div (∑ m : Fin 2048, kt X PW PB W1 B1 W2 B2 n m * X m f) (row X PW PB W1 B1 W2 B2 n) - X n f)

/-- The layer with the kernel normalised row by row BEFORE the product with x. -/
def outR (n : Fin 2048) (f : Fin 256) : EReal :=
  X n f + DT * (four * (∑ m : Fin 2048, Ideal.div (kt X PW PB W1 B1 W2 B2 n m) (row X PW PB W1 B1 W2 B2 n) * X m f) - X n f)

/-! ## The layer over the whole arrays

The arguments as the programs hold them — arrays over shapes of literal extents — enter the slab functions through their
coordinates: batch `b` of `x` is the slab `fun n f => x (b, n, f)`, the row vector `pi_w2 : [1, 256]` is read at `(0, f)`, the
two one-element vectors at `0`. -/

section arrays
open Idealize.ShloMosaic.ValueIdx

variable (x0 : (⟨3, ![8, 2048, 256]⟩ : Shape).Idx → EReal) (x1 : (⟨2, ![16, 256]⟩ : Shape).Idx → EReal)
  (x2 : (⟨1, ![16]⟩ : Shape).Idx → EReal) (x3 : (⟨2, ![256, 16]⟩ : Shape).Idx → EReal) (x4 : (⟨1, ![256]⟩ : Shape).Idx → EReal)
  (x5 : (⟨2, ![1, 256]⟩ : Shape).Idx → EReal) (x6 x7 : (⟨1, ![1]⟩ : Shape).Idx → EReal)

/-- Batch `b` of `x` as a slab. -/
abbrev slab (b : Fin 8) : Fin 2048 → Fin 256 → EReal := fun n f => x0 (ix3 b n f)
abbrev matPW : Fin 16 → Fin 256 → EReal := fun l f => x1 (ix2 l f)
abbrev vecPB : Fin 16 → EReal := fun l => x2 (ix1 l)
abbrev matW1 : Fin 256 → Fin 16 → EReal := fun f l => x3 (ix2 f l)
abbrev vecB1 : Fin 256 → EReal := fun f => x4 (ix1 f)
abbrev vecW2 : Fin 256 → EReal := fun f => x5 (ix2 0 f)

/-- The whole result array, quotient after the product (the kernel's spelling). -/
def arrK : (⟨3, ![8, 2048, 256]⟩ : Shape).Idx → EReal := fun i =>
  outK (slab x0 (i 0)) (matPW x1) (vecPB x2) (matW1 x3) (vecB1 x4) (vecW2 x5) (x6 (ix1 0)) (x7 (ix1 0)) (i 1) (i 2)

/-- The whole result array, rows normalised before the product (the reference's spelling). -/
def arrR : (⟨3, ![8, 2048, 256]⟩ : Shape).Idx → EReal := fun i =>
  outR (slab x0 (i 0)) (matPW x1) (vecPB x2) (matW1 x3) (vecB1 x4) (vecW2 x5) (x6 (ix1 0)) (x7 (ix1 0)) (i 1) (i 2)

end arrays

end Tmd

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«159826_j36816459661845_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.KernelPay.lean ====
/-
  The kernel body's payloads at exact arithmetic, read at an index.

  Each payload is a chain of pointwise operations, re-layouts (casts that add or drop a unit axis, transposes, broadcasts
  of a row or a column), products of two matrices into a zero accumulator, and row sums kept as a column. Read at an entry,
  a pointwise operation acts on the entries, a re-layout reads its operand at the entry with the same coordinates, a
  product is the sum over the contracted axis of the products of the factors' entries, and a row sum is the sum of the
  row's entries. The roundings to a narrower float type are the identity at exact arithmetic.
-/
import proofs.«159826_j36816459661845_1_alg».proof.Proof.Gen.KernelIdeal.Skeleton
import proofs.«159826_j36816459661845_1_alg».proof.Proof.Spec
import proofs.«159826_j36816459661845_1_alg».proof.Proof.LibMatmulIdx
import proofs.«159826_j36816459661845_1_alg».proof.Proof.LibBatchLayouts
import proofs.«159826_j36816459661845_1_alg».proof.Proof.LibKeepdims
import proofs.«159826_j36816459661845_1_alg».proof.Proof.LibColumnOps
import proofs.«159826_j36816459661845_1_alg».proof.Proof.LibRowLayouts
import proofs.«159826_j36816459661845_1_alg».proof.Proof.LibRowOps
import proofs.«159826_j36816459661845_1_alg».proof.Proof.LibReciprocalScale
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ### The four products of two matrices into the zero splat, at an entry -/

theorem mm_x_w (prec : Option ContractPrecision) (l : FVec Ideal S2048x256 .bf16) (r : FVec Ideal S256x16 .bf16) (j : S2048x16.Idx) :
    matmul dot_S2048x256_S256x16_S2048x16_1_0_0_1_n_n prec l r (constant S2048x16 .f32 0x00000000#32) j
      = ∑ k : Fin 256, l (ix2 (j 0) k) * r (ix2 k (j 1)) :=
  LibMatmulIdx.matmul2_apply dot_S2048x256_S256x16_S2048x16_1_0_0_1_n_n rfl rfl
    (fun j k => by
      unfold DotDims.lhsIdx
      rw [dif_neg (show ¬(0 : Fin S2048x256.rank) ∈ dot_S2048x256_S256x16_S2048x16_1_0_0_1_n_n.lhsBatch by decide),
        dif_pos (show (0 : Fin S2048x256.rank) ∈ dot_S2048x256_S256x16_S2048x16_1_0_0_1_n_n.lhsNonContracting by decide)]
      rfl)
    (fun j k => dot_S2048x256_S256x16_S2048x16_1_0_0_1_n_n.lhsIdx_val_of_single rfl j k)
    (fun j k => dot_S2048x256_S256x16_S2048x16_1_0_0_1_n_n.rhsIdx_val_of_single rfl j k)
    (fun j k => by
      unfold DotDims.rhsIdx
      rw [dif_neg (show ¬(1 : Fin S256x16.rank) ∈ dot_S2048x256_S256x16_S2048x16_1_0_0_1_n_n.rhsBatch by decide),
        dif_pos (show (1 : Fin S256x16.rank) ∈ dot_S2048x256_S256x16_S2048x16_1_0_0_1_n_n.rhsNonContracting by decide)]
      rfl)
    prec l r j

theorem mm_z_t (prec : Option ContractPrecision) (l : FVec Ideal S2048x16 .f32) (r : FVec Ideal S16x256 .f32) (j : S2048x256.Idx) :
    matmul dot_S2048x16_S16x256_S2048x256_1_0_0_1_n_n prec l r (constant S2048x256 .f32 0x00000000#32) j
      = ∑ k : Fin 16, l (ix2 (j 0) k) * r (ix2 k (j 1)) :=
  LibMatmulIdx.matmul2_apply dot_S2048x16_S16x256_S2048x256_1_0_0_1_n_n rfl rfl
    (fun j k => by
      unfold DotDims.lhsIdx
      rw [dif_neg (show ¬(0 : Fin S2048x16.rank) ∈ dot_S2048x16_S16x256_S2048x256_1_0_0_1_n_n.lhsBatch by decide),
        dif_pos (show (0 : Fin S2048x16.rank) ∈ dot_S2048x16_S16x256_S2048x256_1_0_0_1_n_n.lhsNonContracting by decide)]
      rfl)
    (fun j k => dot_S2048x16_S16x256_S2048x256_1_0_0_1_n_n.lhsIdx_val_of_single rfl j k)
    (fun j k => dot_S2048x16_S16x256_S2048x256_1_0_0_1_n_n.rhsIdx_val_of_single rfl j k)
    (fun j k => by
      unfold DotDims.rhsIdx
      rw [dif_neg (show ¬(1 : Fin S16x256.rank) ∈ dot_S2048x16_S16x256_S2048x256_1_0_0_1_n_n.rhsBatch by decide),
        dif_pos (show (1 : Fin S16x256.rank) ∈ dot_S2048x16_S16x256_S2048x256_1_0_0_1_n_n.rhsNonContracting by decide)]
      rfl)
    prec l r j

theorem mm_z_t16 (prec : Option ContractPrecision) (l : FVec Ideal S2048x16 .bf16) (r : FVec Ideal S16x256 .bf16) (j : S2048x256.Idx) :
    matmul dot_S2048x16_S16x256_S2048x256_1_0_0_1_n_n prec l r (constant S2048x256 .f32 0x00000000#32) j
      = ∑ k : Fin 16, l (ix2 (j 0) k) * r (ix2 k (j 1)) :=
  LibMatmulIdx.matmul2_apply dot_S2048x16_S16x256_S2048x256_1_0_0_1_n_n rfl rfl
    (fun j k => by
      unfold DotDims.lhsIdx
      rw [dif_neg (show ¬(0 : Fin S2048x16.rank) ∈ dot_S2048x16_S16x256_S2048x256_1_0_0_1_n_n.lhsBatch by decide),
        dif_pos (show (0 : Fin S2048x16.rank) ∈ dot_S2048x16_S16x256_S2048x256_1_0_0_1_n_n.lhsNonContracting by decide)]
      rfl)
    (fun j k => dot_S2048x16_S16x256_S2048x256_1_0_0_1_n_n.lhsIdx_val_of_single rfl j k)
    (fun j k => dot_S2048x16_S16x256_S2048x256_1_0_0_1_n_n.rhsIdx_val_of_single rfl j k)
    (fun j k => by
      unfold DotDims.rhsIdx
      rw [dif_neg (show ¬(1 : Fin S16x256.rank) ∈ dot_S2048x16_S16x256_S2048x256_1_0_0_1_n_n.rhsBatch by decide),
        dif_pos (show (1 : Fin S16x256.rank) ∈ dot_S2048x16_S16x256_S2048x256_1_0_0_1_n_n.rhsNonContracting by decide)]
      rfl)
    prec l r j

theorem mm_h_w (prec : Option ContractPrecision) (l : FVec Ideal S2048x256 .bf16) (r : FVec Ideal S256x1 .bf16) (j : S2048x1.Idx) :
    matmul dot_S2048x256_S256x1_S2048x1_1_0_0_1_n_n prec l r (constant S2048x1 .f32 0x00000000#32) j
      = ∑ k : Fin 256, l (ix2 (j 0) k) * r (ix2 k (j 1)) :=
  LibMatmulIdx.matmul2_apply dot_S2048x256_S256x1_S2048x1_1_0_0_1_n_n rfl rfl
    (fun j k => by
      unfold DotDims.lhsIdx
      rw [dif_neg (show ¬(0 : Fin S2048x256.rank) ∈ dot_S2048x256_S256x1_S2048x1_1_0_0_1_n_n.lhsBatch by decide),
        dif_pos (show (0 : Fin S2048x256.rank) ∈ dot_S2048x256_S256x1_S2048x1_1_0_0_1_n_n.lhsNonContracting by decide)]
      rfl)
    (fun j k => dot_S2048x256_S256x1_S2048x1_1_0_0_1_n_n.lhsIdx_val_of_single rfl j k)
    (fun j k => dot_S2048x256_S256x1_S2048x1_1_0_0_1_n_n.rhsIdx_val_of_single rfl j k)
    (fun j k => by
      unfold DotDims.rhsIdx
      rw [dif_neg (show ¬(1 : Fin S256x1.rank) ∈ dot_S2048x256_S256x1_S2048x1_1_0_0_1_n_n.rhsBatch by decide),
        dif_pos (show (1 : Fin S256x1.rank) ∈ dot_S2048x256_S256x1_S2048x1_1_0_0_1_n_n.rhsNonContracting by decide)]
      rfl)
    prec l r j

theorem mm_k_x (prec : Option ContractPrecision) (l : FVec Ideal S2048x256 .bf16) (r : FVec Ideal S256x256 .bf16) (j : S2048x256.Idx) :
    matmul dot_S2048x256_S256x256_S2048x256_1_0_0_1_n_n prec l r (constant S2048x256 .f32 0x00000000#32) j
      = ∑ k : Fin 256, l (ix2 (j 0) k) * r (ix2 k (j 1)) :=
  LibMatmulIdx.matmul2_apply dot_S2048x256_S256x256_S2048x256_1_0_0_1_n_n rfl rfl
    (fun j k => by
      unfold DotDims.lhsIdx
      rw [dif_neg (show ¬(0 : Fin S2048x256.rank) ∈ dot_S2048x256_S256x256_S2048x256_1_0_0_1_n_n.lhsBatch by decide),
        dif_pos (show (0 : Fin S2048x256.rank) ∈ dot_S2048x256_S256x256_S2048x256_1_0_0_1_n_n.lhsNonContracting by decide)]
      rfl)
    (fun j k => dot_S2048x256_S256x256_S2048x256_1_0_0_1_n_n.lhsIdx_val_of_single rfl j k)
    (fun j k => dot_S2048x256_S256x256_S2048x256_1_0_0_1_n_n.rhsIdx_val_of_single rfl j k)
    (fun j k => by
      unfold DotDims.rhsIdx
      rw [dif_neg (show ¬(1 : Fin S256x256.rank) ∈ dot_S2048x256_S256x256_S2048x256_1_0_0_1_n_n.rhsBatch by decide),
        dif_pos (show (1 : Fin S256x256.rank) ∈ dot_S2048x256_S256x256_S2048x256_1_0_0_1_n_n.rhsNonContracting by decide)]
      rfl)
    prec l r j

/-! ### The payloads -/

/-- z = x·Wᵀ + b at row n, coordinate l. -/
theorem pay5_apply (v0 : Vec Ideal S1x2048x256 .f32) (v2 : Vec Ideal S16x256 .f32) (v3 : Vec Ideal S16 .f32) (n : Fin 2048) (l : Fin 16) :
    k0_pay5 (F := Ideal) v0 v2 v3 (ix2 n l) = (∑ f : Fin 256, v0 (ix3 (0 : Fin 1) n f) * v2 (ix2 l f)) + v3 (ix1 l) := by
  unfold k0_pay5
  dsimp only
  rw [addf_apply, mm_x_w, LibRowOps.broadcastTo_row_apply, LibRowOps.shapeCast_row_apply]
  refine congrArg (· + v3 (ix1 l)) (Finset.sum_congr rfl fun f _ => ?_)
  rw [truncf_apply, truncf_apply, LibRowLayouts.shapeCast_drop_unit_apply, LibBatchLayouts.transpose_2d_apply]

theorem pay6_eq (v0 : Vec Ideal S1x2048x256 .f32) (v2 : Vec Ideal S16x256 .f32) (v3 : Vec Ideal S16 .f32) :
    k0_pay6 (F := Ideal) v0 v2 v3 = k0_pay5 (F := Ideal) v0 v2 v3 := by
  unfold k0_pay6
  exact shapeCast_self _ _

theorem pay7_apply (v0 : Vec Ideal S1x2048x256 .f32) (v2 : Vec Ideal S16x256 .f32) (v3 : Vec Ideal S16 .f32) (n : Fin 2048) (z : Fin 1) :
    k0_pay7 (F := Ideal) v0 v2 v3 (ix2 n z) = ∑ l : Fin 16, k0_pay5 (F := Ideal) v0 v2 v3 (ix2 n l) * k0_pay5 (F := Ideal) v0 v2 v3 (ix2 n l) := by
  unfold k0_pay7
  dsimp only
  rw [shapeCast_self, LibKeepdims.shapeCast_col_apply]
  exact LibKeepdims.sum_axis1_apply (mulf (k0_pay5 (F := Ideal) v0 v2 v3) (k0_pay5 (F := Ideal) v0 v2 v3)) _ _ _ _ n

theorem pay8_apply (v0 : Vec Ideal S1x2048x256 .f32) (v2 : Vec Ideal S16x256 .f32) (v3 : Vec Ideal S16 .f32) (v20 : Vec Ideal S256x16 .f32) (v21 : Vec Ideal S256 .f32)
    (n : Fin 2048) (f : Fin 256) :
    k0_pay8 (F := Ideal) v0 v2 v3 v20 v21 (ix2 n f)
      = max ((∑ l : Fin 16, k0_pay5 (F := Ideal) v0 v2 v3 (ix2 n l) * v20 (ix2 f l)) + v21 (ix1 f)) 0 := by
  unfold k0_pay8
  dsimp only
  rw [truncf_apply, maximumf_apply, addf_apply, mm_z_t16, LibRowOps.broadcastTo_row_apply, LibRowOps.shapeCast_row_apply,
    broadcast_apply]
  refine congrArg₂ max (congrArg (· + v21 (ix1 f)) (Finset.sum_congr rfl fun l _ => ?_)) Ideal.ofBits_zero_f32
  rw [truncf_apply, truncf_apply, LibBatchLayouts.transpose_2d_apply]

theorem pay9_apply (v31 : Vec Ideal S1x256 .f32) (f : Fin 256) (z : Fin 1) :
    k0_pay9 (F := Ideal) v31 (ix2 f z) = v31 (ix2 (0 : Fin 1) f) := by
  unfold k0_pay9
  dsimp only
  rw [truncf_apply, LibBatchLayouts.transpose_2d_apply]
  exact congrArg v31 (congrArg (fun a => ix2 a f) (Subsingleton.elim _ _))

theorem exp_apply {s : Shape} {φ : FTy} (a : FVec Ideal s φ) (i : s.Idx) : exp a i = Ideal.exp (a i) := rfl

/-- The one entry of a one-element vector. -/
theorem extractAt_zero (v : Vec Ideal S1 .f32) (h : ∀ a, (![0] : Fin S1.rank → Nat) a < S1.size a) :
    extractAt ![0] v h = v (ix1 (0 : Fin 1)) :=
  congrArg v (funext fun a => match a with | ⟨0, _⟩ => Fin.ext rfl)

theorem pay10_apply (v32 : Vec Ideal S1 .f32) (v33 : FVec Ideal S2048x256 .bf16) (v35 : FVec Ideal S256x1 .bf16) (n : Fin 2048) (z : Fin 1) :
    k0_pay10 (F := Ideal) v32 v33 v35 (constant S2048x1 .f32 0x00000000#32) (ix2 n z)
      = Ideal.div 1 (1 + Ideal.exp (-((∑ f : Fin 256, v33 (ix2 n f) * v35 (ix2 f (0 : Fin 1))) + v32 (ix1 (0 : Fin 1))))) := by
  obtain rfl : z = 0 := Subsingleton.elim _ _
  unfold k0_pay10
  rw [shapeCast_self]
  simp only [divf_apply, addf_apply, subf_apply, exp_apply, broadcast_apply]
  rw [mm_h_w, LibRowOps.broadcastTo_row_apply, LibRowOps.shapeCast_row_apply]
  simp only [Ideal.ofBits_def, LibReciprocalScale.ofBits_one_f32, Ideal.ofBits_zero_f32, zero_sub]

theorem pay11_apply (i : S2048x1.Idx) : k0_pay11 (F := Ideal) i = 0 := by
  unfold k0_pay11
  rw [shapeCast_self]
  exact Ideal.ofBits_zero_f32

theorem pay13_apply (i : S2048x256.Idx) : k0_pay13 (F := Ideal) i = 0 := by
  unfold k0_pay13
  rw [shapeCast_self]
  exact Ideal.ofBits_zero_f32

theorem pay14_apply (i : S2048x1.Idx) : k0_pay14 (F := Ideal) i = 0 := by
  unfold k0_pay14
  rw [shapeCast_self]
  exact Ideal.ofBits_zero_f32

theorem pay2_apply (v96 : Vec Ideal S1x256x256 .f32) (c f : Fin 256) :
    k0_pay2 (F := Ideal) v96 (ix2 c f) = v96 (ix3 (0 : Fin 1) c f) := by
  unfold k0_pay2
  exact LibRowLayouts.shapeCast_drop_unit_apply _ _ c f

theorem pay15_eq (v : FVec Ideal S2048x1 .f32) : k0_pay15 (F := Ideal) v = v := by
  unfold k0_pay15
  exact shapeCast_self _ _

theorem pay16_apply (v97 : FVec Ideal S256x256 .f32) (v119 : FVec Ideal S2048x256 .f32) (v127 : Vec Ideal S2048x256 .f32) (n : Fin 2048) (f : Fin 256) :
    k0_pay16 (F := Ideal) v97 v119 v127 (ix2 n f) = v127 (ix2 n f) + ∑ c : Fin 256, v119 (ix2 n c) * v97 (ix2 c f) := by
  unfold k0_pay16
  rw [shapeCast_self, addf_apply, mm_k_x]
  rfl

/-- One column tile's contribution to the kernel's row sums: the column before plus the tile's 256 kernel values. -/
theorem pay12_apply (v88 : Vec Ideal S256x16 .f32) (v90 : Vec Ideal S256x1 .f32) (v91 : Vec Ideal S2048x16 .f32) (v92 : Vec Ideal S2048x1 .f32) (v109 : Vec Ideal S2048x1 .f32)
    (n : Fin 2048) (z : Fin 1) :
    k0_pay12 (F := Ideal) v88 v90 v91 v92 v109 (ix2 n z)
      = v109 (ix2 n (0 : Fin 1)) + ∑ c : Fin 256, Ideal.exp (-(max (v92 (ix2 n (0 : Fin 1)) + v90 (ix2 c (0 : Fin 1))
          - Tmd.two * ∑ l : Fin 16, v91 (ix2 n l) * v88 (ix2 c l)) 0)) := by
  obtain rfl : z = 0 := Subsingleton.elim _ _
  unfold k0_pay12
  rw [shapeCast_self, addf_apply, LibKeepdims.shapeCast_col_apply]
  refine congrArg (v109 (ix2 n (0 : Fin 1)) + ·) ((LibKeepdims.sum_axis1_apply _ _ _ _ _ n).trans (Finset.sum_congr rfl fun c _ => ?_))
  simp only [exp_apply, mulf_apply, subf_apply, addf_apply, maximumf_apply, broadcast_apply]
  rw [mm_z_t, LibColumnOps.broadcastTo_col_apply, LibRowLayouts.broadcastTo_row_apply, LibBatchLayouts.transpose_2d_apply]
  simp only [LibBatchLayouts.transpose_2d_apply, Ideal.ofBits_def, LibReciprocalScale.ofBits_one_f32, Ideal.ofBits_zero_f32, zero_sub, mul_one]

/-- The scaled kernel on one column tile. -/
theorem pay3_apply (v88 : Vec Ideal S256x16 .f32) (v90 v92 v94 : Vec Ideal S256x1 .f32) (v98 : Vec Ideal S2048x16 .f32) (v99 : Vec Ideal S2048x1 .f32)
    (n : Fin 2048) (c : Fin 256) :
    k0_pay3 (F := Ideal) v88 v90 v92 v94 v98 v99 (ix2 n c)
      = Ideal.exp (-(max (v99 (ix2 n (0 : Fin 1)) + v90 (ix2 c (0 : Fin 1)) - Tmd.two * ∑ l : Fin 16, v98 (ix2 n l) * v88 (ix2 c l)) 0))
        * Ideal.div (v92 (ix2 c (0 : Fin 1))) (v94 (ix2 c (0 : Fin 1))) := by
  unfold k0_pay3
  simp only [exp_apply, mulf_apply, subf_apply, addf_apply, maximumf_apply, broadcast_apply]
  rw [mm_z_t, LibColumnOps.broadcastTo_col_apply, LibRowLayouts.broadcastTo_row_apply, LibRowLayouts.broadcastTo_row_apply,
    LibBatchLayouts.transpose_2d_apply, LibBatchLayouts.transpose_2d_apply, divf_apply]
  simp only [LibBatchLayouts.transpose_2d_apply, Ideal.ofBits_def, LibReciprocalScale.ofBits_one_f32, Ideal.ofBits_zero_f32, zero_sub, mul_one]

theorem pay4_apply (v88 : Vec Ideal S256x16 .f32) (v90 v92 v94 : Vec Ideal S256x1 .f32) (v98 : Vec Ideal S2048x16 .f32) (v99 v120 : Vec Ideal S2048x1 .f32)
    (n : Fin 2048) (z : Fin 1) :
    k0_pay4 (F := Ideal) v88 v90 v92 v94 v98 v99 v120 (ix2 n z)
      = v120 (ix2 n (0 : Fin 1)) + ∑ c : Fin 256, k0_pay3 (F := Ideal) v88 v90 v92 v94 v98 v99 (ix2 n c) := by
  obtain rfl : z = 0 := Subsingleton.elim _ _
  unfold k0_pay4
  rw [addf_apply, LibKeepdims.shapeCast_col_apply]
  exact congrArg (v120 (ix2 n (0 : Fin 1)) + ·) (LibKeepdims.sum_axis1_apply (k0_pay3 (F := Ideal) v88 v90 v92 v94 v98 v99) _ _ _ _ n)

/-- The last store: x + dt·(4·acc/(row + ε) − x). -/
theorem pay1_apply (v64 : Vec Ideal S2048x1 .f32) (v67 : Vec Ideal S2048x256 .f32) (v72 : Vec Ideal S1x2048x256 .f32) (v75 : Vec Ideal S1 .f32) (v77 : Vec Ideal S1x2048x256 .f32)
    (z : Fin 1) (n : Fin 2048) (f : Fin 256) :
    k0_pay1 (F := Ideal) v64 (Scalar.ofBits .f32 0x3727C5AC#32) v67 v72 v75 v77 (ix3 z n f)
      = v77 (ix3 (0 : Fin 1) n f) + v75 (ix1 (0 : Fin 1)) * (Tmd.four * Ideal.div (v67 (ix2 n f)) (v64 (ix2 n (0 : Fin 1)) + Tmd.eps) - v72 (ix3 (0 : Fin 1) n f)) := by
  unfold k0_pay1
  rw [LibRowLayouts.shapeCast_add_unit_apply]
  simp only [mulf_apply, subf_apply, addf_apply, divf_apply, broadcast_apply]
  rw [LibRowLayouts.shapeCast_drop_unit_apply, LibRowLayouts.shapeCast_drop_unit_apply, LibColumnOps.broadcastTo_col_apply,
    addf_apply, broadcast_apply, extractAt_zero]
  rfl

end Cert.KernelIdeal.Pay

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.KernelMath.lean ====
import proofs.«159826_j36816459661845_1_alg».proof.Proof.KernelLoops
import proofs.«159826_j36816459661845_1_alg».proof.Proof.KernelPay
import proofs.«159826_j36816459661845_1_alg».proof.Proof.Spec
import proofs.«159826_j36816459661845_1_alg».proof.Proof.LibTileSums
import Idealize.ShloMosaic.Lib.ValueIdx

noncomputable section

namespace Cert.KernelIdeal.Math

open Cert.KernelIdeal Cert.KernelIdeal.Gen Cert.KernelIdeal.Body Cert.KernelIdeal.Pay Idealize.ShloMosaic Idealize.ShloMosaic.ValueIdx

/-! ## Eight column tiles of 256 -/

theorem trips1 : k0_t1_loop.trips = 8 := by decide
theorem trips2 : k0_t2_loop.trips = 8 := by decide

theorem tile_lt (k : ℕ) (hk : k < 8) (c : Fin 256) : 256 * k + c.val < 2048 := by
  have := c.isLt; omega

/-- A family over the 2048 rows, continued by zero to every natural number. -/
def ext0 {M : Type*} [Zero M] (T : Fin 2048 → M) (m : ℕ) : M := if h : m < 2048 then T ⟨m, h⟩ else 0

theorem ext0_lt {M : Type*} [Zero M] (T : Fin 2048 → M) (m : ℕ) (h : m < 2048) : ext0 T m = T ⟨m, h⟩ := dif_pos h

/-- An accumulator that starts at zero and takes, tile by tile, the sum of the tile's 256 terms ends, after the eight
    tiles, at the sum of all 2048 terms: a finite sum in a commutative monoid may be taken in consecutive blocks. -/
theorem acc_tiles {M : Type*} [AddCommMonoid M] (T : Fin 2048 → M) (A : ℕ → M) (h0 : A 0 = 0)
    (hs : ∀ (k : ℕ) (hk : k < 8), A (k + 1) = A k + ∑ c : Fin 256, T ⟨256 * k + c.val, tile_lt k hk c⟩) :
    A 8 = ∑ m : Fin 2048, T m := by
  have inv : ∀ k, k ≤ 8 → A k = ∑ j ∈ Finset.range k, ∑ c : Fin 256, ext0 T (256 * j + c.val) := by
    intro k
    induction k with
    | zero => intro _; rw [h0, Finset.sum_range_zero]
    | succ k ih =>
      intro hk
      rw [hs k (by omega), ih (by omega), Finset.sum_range_succ]
      refine congrArg (_ + ·) (Finset.sum_congr rfl fun c _ => ?_)
      exact (ext0_lt T _ (tile_lt k (by omega) c)).symm
  rw [inv 8 le_rfl, ← LibTileSums.sum_tiles 8 256 2048 rfl (ext0 T)]
  exact Finset.sum_congr rfl fun m _ => ext0_lt T m.val m.isLt

/-! ## A tile's load reads the whole array at shifted rows

A unit-stride rectangle's index on an axis is the offset plus the coordinate inside the block; the offsets of tile `k`
are `256 * k` on the row axis and zero elsewhere. -/

section reads
variable {Val : EltTy → Type} {e : EltTy}

theorem ld_off1 (Z : S2048x16.Idx → Val e) (k : ℕ) (hk : k < k0_t1_loop.trips) (c : Fin 256) (l : Fin 16) (h : 256 * k + c.val < 2048) :
    View.ld Z (Rect.unit (k0_off1 ⟨k, hk⟩) S256x16.size (k0_off1_inb ⟨k, hk⟩)) (ix2 c l) = Z (ix2 ⟨256 * k + c.val, h⟩ l) := by
  refine congrArg Z (funext fun a => Fin.ext ?_)
  match a with
  | ⟨0, _⟩ => show k0_off1 ⟨k, hk⟩ 0 + 1 * c.val = 256 * k + c.val; rw [k0_off1_eq]; show 256 * k + 1 * c.val = _; omega
  | ⟨1, _⟩ => show k0_off1 ⟨k, hk⟩ 1 + 1 * l.val = l.val; rw [k0_off1_eq]; show 0 + 1 * l.val = _; omega

theorem ld_off2 (V : S2048x1.Idx → Val e) (k : ℕ) (hk : k < k0_t1_loop.trips) (c : Fin 256) (z : Fin 1) (h : 256 * k + c.val < 2048) :
    View.ld V (Rect.unit (k0_off2 ⟨k, hk⟩) S256x1.size (k0_off2_inb ⟨k, hk⟩)) (ix2 c z) = V (ix2 ⟨256 * k + c.val, h⟩ z) := by
  refine congrArg V (funext fun a => Fin.ext ?_)
  match a with
  | ⟨0, _⟩ => show k0_off2 ⟨k, hk⟩ 0 + 1 * c.val = 256 * k + c.val; rw [k0_off2_eq]; show 256 * k + 1 * c.val = _; omega
  | ⟨1, _⟩ => show k0_off2 ⟨k, hk⟩ 1 + 1 * z.val = z.val; rw [k0_off2_eq]; show 0 + 1 * z.val = _; omega

theorem ld_off3 (Z : S2048x16.Idx → Val e) (k : ℕ) (hk : k < k0_t2_loop.trips) (c : Fin 256) (l : Fin 16) (h : 256 * k + c.val < 2048) :
    View.ld Z (Rect.unit (k0_off3 ⟨k, hk⟩) S256x16.size (k0_off3_inb ⟨k, hk⟩)) (ix2 c l) = Z (ix2 ⟨256 * k + c.val, h⟩ l) := by
  refine congrArg Z (funext fun a => Fin.ext ?_)
  match a with
  | ⟨0, _⟩ => show k0_off3 ⟨k, hk⟩ 0 + 1 * c.val = 256 * k + c.val; rw [k0_off3_eq]; show 256 * k + 1 * c.val = _; omega
  | ⟨1, _⟩ => show k0_off3 ⟨k, hk⟩ 1 + 1 * l.val = l.val; rw [k0_off3_eq]; show 0 + 1 * l.val = _; omega

theorem ld_off4 (V : S2048x1.Idx → Val e) (k : ℕ) (hk : k < k0_t2_loop.trips) (c : Fin 256) (z : Fin 1) (h : 256 * k + c.val < 2048) :
    View.ld V (Rect.unit (k0_off4 ⟨k, hk⟩) S256x1.size (k0_off4_inb ⟨k, hk⟩)) (ix2 c z) = V (ix2 ⟨256 * k + c.val, h⟩ z) := by
  refine congrArg V (funext fun a => Fin.ext ?_)
  match a with
  | ⟨0, _⟩ => show k0_off4 ⟨k, hk⟩ 0 + 1 * c.val = 256 * k + c.val; rw [k0_off4_eq]; show 256 * k + 1 * c.val = _; omega
  | ⟨1, _⟩ => show k0_off4 ⟨k, hk⟩ 1 + 1 * z.val = z.val; rw [k0_off4_eq]; show 0 + 1 * z.val = _; omega

theorem ld_off5 (X : S1x2048x256.Idx → Val e) (k : ℕ) (hk : k < k0_t2_loop.trips) (z : Fin 1) (c f : Fin 256) (h : 256 * k + c.val < 2048) :
    View.ld X (Rect.unit (k0_off5 ⟨k, hk⟩) S1x256x256.size (k0_off5_inb ⟨k, hk⟩)) (ix3 z c f) = X (ix3 z ⟨256 * k + c.val, h⟩ f) := by
  refine congrArg X (funext fun a => Fin.ext ?_)
  match a with
  | ⟨0, _⟩ => show k0_off5 ⟨k, hk⟩ 0 + 1 * z.val = z.val; rw [k0_off5_eq]; show 0 + 1 * z.val = _; omega
  | ⟨1, _⟩ => show k0_off5 ⟨k, hk⟩ 1 + 1 * c.val = 256 * k + c.val; rw [k0_off5_eq]; show 256 * k + 1 * c.val = _; omega
  | ⟨2, _⟩ => show k0_off5 ⟨k, hk⟩ 2 + 1 * f.val = f.val; rw [k0_off5_eq]; show 0 + 1 * f.val = _; omega

end reads

/-! ## The kernel value and the scaled kernel, from the arrays the loops read -/

section loops
variable (X : Vec Ideal S1x2048x256 .f32) (Z : Vec Ideal S2048x16 .f32) (SQ PIV Q : Vec Ideal S2048x1 .f32)

/-- The Gaussian kernel value at rows n, m, from z and ‖z‖². -/
def E (n m : Fin 2048) : EReal :=
  Ideal.exp (-(max (SQ (ix2 n (0 : Fin 1)) + SQ (ix2 m (0 : Fin 1)) - Tmd.two * ∑ l : Fin 16, Z (ix2 n l) * Z (ix2 m l)) 0))

/-- The column-scaled kernel value, from the gate and the kernel's row sums. -/
def KT (n m : Fin 2048) : EReal := E Z SQ n m * Ideal.div (PIV (ix2 m (0 : Fin 1))) (Q (ix2 m (0 : Fin 1)))

/-- One trip of the first loop adds the tile's 256 kernel values to each row's sum. -/
theorem q_step (k : ℕ) (hk : k < 8) (n : Fin 2048) (z : Fin 1) :
    qAfter Z SQ (k + 1) (ix2 n z)
      = qAfter Z SQ k (ix2 n z) + ∑ c : Fin 256, E Z SQ n ⟨256 * k + c.val, tile_lt k hk c⟩ := by
  obtain rfl : z = 0 := Subsingleton.elim _ _
  rw [show qAfter Z SQ (k + 1) = _ from qAfter_succ Z SQ ⟨k, trips1 ▸ hk⟩, pay12_apply]
  refine congrArg (_ + ·) (Finset.sum_congr rfl fun c _ => ?_)
  rw [ld_off2 SQ k _ c 0 (tile_lt k hk c)]
  simp only [ld_off1 Z k _ c _ (tile_lt k hk c)]
  rfl

/-- After the eight tiles the q column holds the kernel's row sums. -/
theorem q_total (n : Fin 2048) (z : Fin 1) :
    qAfter Z SQ k0_t1_loop.trips (ix2 n z) = ∑ m : Fin 2048, E Z SQ n m := by
  rw [trips1]
  exact acc_tiles (E Z SQ n) (fun k => qAfter Z SQ k (ix2 n z)) (pay11_apply (ix2 n z)) (fun k hk => q_step Z SQ k hk n z)

/-- One trip of the second loop adds the tile's 256 scaled kernel values to each row's sum … -/
theorem row_step (k : ℕ) (hk : k < 8) (n : Fin 2048) (z : Fin 1) :
    (accRowAfter X Z SQ PIV Q (k + 1)).2 (ix2 n z)
      = (accRowAfter X Z SQ PIV Q k).2 (ix2 n z) + ∑ c : Fin 256, KT Z SQ PIV Q n ⟨256 * k + c.val, tile_lt k hk c⟩ := by
  obtain rfl : z = 0 := Subsingleton.elim _ _
  rw [show accRowAfter X Z SQ PIV Q (k + 1) = _ from accRowAfter_succ X Z SQ PIV Q ⟨k, trips2 ▸ hk⟩]
  dsimp only
  rw [pay15_eq, pay4_apply]
  refine congrArg (_ + ·) (Finset.sum_congr rfl fun c _ => ?_)
  rw [pay3_apply, ld_off4 SQ k _ c 0 (tile_lt k hk c), ld_off4 PIV k _ c 0 (tile_lt k hk c), ld_off4 Q k _ c 0 (tile_lt k hk c)]
  simp only [ld_off3 Z k _ c _ (tile_lt k hk c)]
  rfl

/-- … and their products with the tile's rows of x to the accumulator. -/
theorem acc_step (k : ℕ) (hk : k < 8) (n : Fin 2048) (f : Fin 256) :
    (accRowAfter X Z SQ PIV Q (k + 1)).1 (ix2 n f)
      = (accRowAfter X Z SQ PIV Q k).1 (ix2 n f)
        + ∑ c : Fin 256, KT Z SQ PIV Q n ⟨256 * k + c.val, tile_lt k hk c⟩ * X (ix3 (0 : Fin 1) ⟨256 * k + c.val, tile_lt k hk c⟩ f) := by
  rw [show accRowAfter X Z SQ PIV Q (k + 1) = _ from accRowAfter_succ X Z SQ PIV Q ⟨k, trips2 ▸ hk⟩]
  dsimp only
  rw [pay16_apply]
  refine congrArg (_ + ·) (Finset.sum_congr rfl fun c _ => ?_)
  rw [pay2_apply, ld_off5 X k _ 0 c f (tile_lt k hk c), pay3_apply, ld_off4 SQ k _ c 0 (tile_lt k hk c),
    ld_off4 PIV k _ c 0 (tile_lt k hk c), ld_off4 Q k _ c 0 (tile_lt k hk c)]
  simp only [ld_off3 Z k _ c _ (tile_lt k hk c)]
  rfl

theorem row_total (n : Fin 2048) (z : Fin 1) :
    (accRowAfter X Z SQ PIV Q k0_t2_loop.trips).2 (ix2 n z) = ∑ m : Fin 2048, KT Z SQ PIV Q n m := by
  rw [trips2]
  exact acc_tiles (KT Z SQ PIV Q n) (fun k => (accRowAfter X Z SQ PIV Q k).2 (ix2 n z)) (pay14_apply (ix2 n z))
    (fun k hk => row_step X Z SQ PIV Q k hk n z)

theorem acc_total (n : Fin 2048) (f : Fin 256) :
    (accRowAfter X Z SQ PIV Q k0_t2_loop.trips).1 (ix2 n f)
      = ∑ m : Fin 2048, KT Z SQ PIV Q n m * X (ix3 (0 : Fin 1) m f) := by
  rw [trips2]
  exact acc_tiles (fun m => KT Z SQ PIV Q n m * X (ix3 (0 : Fin 1) m f)) (fun k => (accRowAfter X Z SQ PIV Q k).1 (ix2 n f))
    (pay13_apply (ix2 n f)) (fun k hk => acc_step X Z SQ PIV Q k hk n f)

end loops

/-! ## The arrays the body computes before its loops, as the layer's functions -/

section assembly
variable (x0 : Vec Ideal S1x2048x256 .f32) (x1 : Vec Ideal S16x256 .f32) (x2 : Vec Ideal S16 .f32)
  (x3 : Vec Ideal S256x16 .f32) (x4 : Vec Ideal S256 .f32) (x5 : Vec Ideal S1x256 .f32) (x6 x7 : Vec Ideal S1 .f32)

/-- The block of x as a slab. -/
abbrev blk : Fin 2048 → Fin 256 → EReal := fun n f => x0 (ix3 (0 : Fin 1) n f)

theorem z_eq (n : Fin 2048) (l : Fin 16) :
    k0_pay5 (F := Ideal) x0 x1 x2 (ix2 n l) = Tmd.z (blk x0) (Tmd.matPW x1) (Tmd.vecPB x2) n l := by
  rw [pay5_apply]; rfl

theorem sq_eq (n : Fin 2048) (z : Fin 1) :
    k0_pay7 (F := Ideal) x0 x1 x2 (ix2 n z) = Tmd.sq (blk x0) (Tmd.matPW x1) (Tmd.vecPB x2) n := by
  rw [pay7_apply]
  simp only [z_eq]
  rfl

theorem kern_eq (n m : Fin 2048) :
    E (k0_pay6 (F := Ideal) x0 x1 x2) (k0_pay7 (F := Ideal) x0 x1 x2) n m
      = Tmd.kern (blk x0) (Tmd.matPW x1) (Tmd.vecPB x2) n m := by
  unfold E
  simp only [pay6_eq, z_eq, sq_eq]
  rfl

theorem q_eq (n : Fin 2048) (z : Fin 1) :
    qAfter (F := Ideal) (k0_pay6 (F := Ideal) x0 x1 x2) (k0_pay7 (F := Ideal) x0 x1 x2) k0_t1_loop.trips (ix2 n z)
      = Tmd.q (blk x0) (Tmd.matPW x1) (Tmd.vecPB x2) n := by
  rw [q_total]
  simp only [kern_eq]
  rfl

theorem piv_eq (n : Fin 2048) (z : Fin 1) :
    k0_pay10 (F := Ideal) x6 (k0_pay8 (F := Ideal) x0 x1 x2 x3 x4) (k0_pay9 (F := Ideal) x5) (constant S2048x1 .f32 0x00000000#32) (ix2 n z)
      = Tmd.piv (blk x0) (Tmd.matPW x1) (Tmd.vecPB x2) (Tmd.matW1 x3) (Tmd.vecB1 x4) (Tmd.vecW2 x5) (x6 (ix1 0)) n := by
  rw [pay10_apply]
  simp only [pay8_apply, pay9_apply, z_eq]
  rfl

theorem kt_eq (n m : Fin 2048) :
    KT (k0_pay6 (F := Ideal) x0 x1 x2) (k0_pay7 (F := Ideal) x0 x1 x2)
        (k0_pay10 (F := Ideal) x6 (k0_pay8 (F := Ideal) x0 x1 x2 x3 x4) (k0_pay9 (F := Ideal) x5) (constant S2048x1 .f32 0x00000000#32))
        (qAfter (F := Ideal) (k0_pay6 (F := Ideal) x0 x1 x2) (k0_pay7 (F := Ideal) x0 x1 x2) k0_t1_loop.trips) n m
      = Tmd.kt (blk x0) (Tmd.matPW x1) (Tmd.vecPB x2) (Tmd.matW1 x3) (Tmd.vecB1 x4) (Tmd.vecW2 x5) (x6 (ix1 0)) n m := by
  unfold KT
  rw [kern_eq, piv_eq, q_eq]
  rfl

end assembly

end Cert.KernelIdeal.Math

namespace Cert.KernelIdeal.Body

open Cert.KernelIdeal Cert.KernelIdeal.Gen Cert.KernelIdeal.Pay Cert.KernelIdeal.Math Idealize.ShloMosaic

/-- THE BODY'S OUTPUT BLOCK: the layer with the quotient taken after the product with the block of x. -/
theorem bodyOut_apply (x0 : Vec Ideal S1x2048x256 .f32) (x1 : Vec Ideal S16x256 .f32) (x2 : Vec Ideal S16 .f32)
    (x3 : Vec Ideal S256x16 .f32) (x4 : Vec Ideal S256 .f32) (x5 : Vec Ideal S1x256 .f32) (x6 x7 : Vec Ideal S1 .f32)
    (z : Fin 1) (n : Fin 2048) (f : Fin 256) :
    bodyOut (F := Ideal) x0 x1 x2 x3 x4 x5 x6 x7 (ValueIdx.ix3 z n f)
      = Tmd.outK (fun n f => x0 (ValueIdx.ix3 (0 : Fin 1) n f)) (Tmd.matPW x1) (Tmd.vecPB x2) (Tmd.matW1 x3) (Tmd.vecB1 x4)
          (Tmd.vecW2 x5) (x6 (ValueIdx.ix1 0)) (x7 (ValueIdx.ix1 0)) n f := by
  unfold bodyOut
  rw [pay1_apply, acc_total, row_total]
  simp only [kt_eq]
  rfl

end Cert.KernelIdeal.Body

end
-- ==== Proof.KernelValue.lean ====
/-
  From blocks to the array: the kernel's result array after its run is the layer of its argument arrays.

  The grid has one point per batch; the point's x window and output window are the batch's slab, every weight window is
  its whole array.  So what a point writes back is its batch's block of the layer, and the eight blocks fill the array.
-/
import proofs.«159826_j36816459661845_1_alg».proof.Proof.KernelLoops
import proofs.«159826_j36816459661845_1_alg».proof.Proof.KernelMath
import proofs.«159826_j36816459661845_1_alg».proof.Proof.Gen.KernelIdeal.Value
import proofs.«159826_j36816459661845_1_alg».proof.Proof.Spec
import Idealize.ShloMosaic.Lib.ValueIdx

set_option maxRecDepth 16384

noncomputable section

namespace Cert.KernelIdeal.ArrValue

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of the argument arrays as the region finds them on device `c`. -/
abbrev G (c : Dev nD) : S8x2048x256.Idx → EReal := Tmd.arrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The printed index maps over the eight grid points: the x window and the output window are at the point's batch,
    at the origin of the other two axes; every weight window is at the origin. -/
theorem idx_facts : ∀ t : Fin cfg0.N,
    win0_0.index t (0 : Fin 3) = win0_8.index t (0 : Fin 3) ∧ win0_0.index t (1 : Fin 3) = 0 ∧ win0_0.index t (2 : Fin 3) = 0
    ∧ win0_8.index t (1 : Fin 3) = 0 ∧ win0_8.index t (2 : Fin 3) = 0 ∧ win0_8.index t (0 : Fin 3) < 8
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 1) = 0 :=
  (by decide +kernel : ∀ t : Fin grid0.N, _)

/-- Every batch is some point's. -/
theorem idx_onto : ∀ b : Fin 8, ∃ t : Fin cfg0.N, win0_8.index t = ![b.val, 0, 0] :=
  (by decide +kernel : ∀ b : Fin 8, ∃ t : Fin grid0.N, win0_8.index t = ![b.val, 0, 0])

/-! ## The weight windows' blocks are the whole arrays -/

theorem iblk1 (c : Dev nD) (t : Fin cfg0.N) : iblk m c 1 t = (m ((c : Thread nD τ).loc main_arg1)) := by
  obtain ⟨-, -, -, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 256 + 1 * (y 1).val = (y 1).val; omega

theorem iblk2 (c : Dev nD) (t : Fin cfg0.N) : iblk m c 2 t = (m ((c : Thread nD τ).loc main_arg2)) := by
  obtain ⟨-, -, -, -, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 16 + 1 * (y 0).val = (y 0).val; omega

theorem iblk3 (c : Dev nD) (t : Fin cfg0.N) : iblk m c 3 t = (m ((c : Thread nD τ).loc main_arg3)) := by
  obtain ⟨-, -, -, -, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 16 + 1 * (y 1).val = (y 1).val; omega

theorem iblk4 (c : Dev nD) (t : Fin cfg0.N) : iblk m c 4 t = (m ((c : Thread nD τ).loc main_arg4)) := by
  obtain ⟨-, -, -, -, -, -, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 256 + 1 * (y 0).val = (y 0).val; omega

theorem iblk5 (c : Dev nD) (t : Fin cfg0.N) : iblk m c 5 t = (m ((c : Thread nD τ).loc main_arg5)) := by
  obtain ⟨-, -, -, -, -, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem iblk6 (c : Dev nD) (t : Fin cfg0.N) : iblk m c 6 t = (m ((c : Thread nD τ).loc main_arg6)) := by
  obtain ⟨-, -, -, -, -, -, -, -, -, -, -, -, -, -, e0, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 1 + 1 * (y 0).val = (y 0).val; omega

theorem iblk7 (c : Dev nD) (t : Fin cfg0.N) : iblk m c 7 t = (m ((c : Thread nD τ).loc main_arg7)) := by
  obtain ⟨-, -, -, -, -, -, -, -, -, -, -, -, -, -, -, e0⟩ := idx_facts t
  funext y
  show V m c main_arg7 (((cfg0.win 7).blk t).view.emb y) = V m c main_arg7 y
  refine congrArg _ (funext fun a => Fin.ext ?_)
  match a with
  | ⟨0, _⟩ => show win0_7.index t (0 : Fin 1) * 1 + 1 * (y 0).val = (y 0).val; omega

/-! ## What a point writes back -/

/-- The body's output block at an index of the block, from its input blocks. -/
theorem body_at (x0 : Vec Ideal S1x2048x256 .f32) (x1 : Vec Ideal S16x256 .f32) (x2 : Vec Ideal S16 .f32)
    (x3 : Vec Ideal S256x16 .f32) (x4 : Vec Ideal S256 .f32) (x5 : Vec Ideal S1x256 .f32) (x6 x7 : Vec Ideal S1 .f32)
    (y : S1x2048x256.Idx) :
    bodyOut (F := Ideal) x0 x1 x2 x3 x4 x5 x6 x7 y
      = Tmd.outK (fun n f => x0 (ix3 (0 : Fin 1) n f)) (Tmd.matPW x1) (Tmd.vecPB x2) (Tmd.matW1 x3) (Tmd.vecB1 x4)
          (Tmd.vecW2 x5) (x6 (ix1 0)) (x7 (ix1 0)) (y 1) (y 2) := by
  exact (congrArg (bodyOut (F := Ideal) x0 x1 x2 x3 x4 x5 x6 x7) (eq_ix3 y)).trans
    (bodyOut_apply x0 x1 x2 x3 x4 x5 x6 x7 (y 0) (y 1) (y 2))

theorem outK_congr {X X' : Fin 2048 → Fin 256 → EReal} (PW : Fin 16 → Fin 256 → EReal) (PB : Fin 16 → EReal)
    (W1 : Fin 256 → Fin 16 → EReal) (B1 : Fin 256 → EReal) (W2 : Fin 256 → EReal) (B2 DT : EReal)
    {n n' : Fin 2048} {f f' : Fin 256} (hX : X = X') (hn : n = n') (hf : f = f') :
    Tmd.outK X PW PB W1 B1 W2 B2 DT n f = Tmd.outK X' PW PB W1 B1 W2 B2 DT n' f' := by
  subst hX hn hf; rfl

/-- WHAT POINT `t` WRITES BACK is block `t` of the layer of the argument arrays. -/
theorem flushed_eq (c : Dev nD) (t : Fin cfg0.N) :
    (dats m 0 c).flushed 8 t = ((cfg0.win 8).blk t).view.read (Elt Ideal) (G m c) := by
  rw [Cert.KernelIdeal.Value.flushed8_A, out_eq_bodyOut, iblk1, iblk2, iblk3, iblk4, iblk5, iblk6, iblk7]
  obtain ⟨e0, e1, e2, e3, e4, e5, -⟩ := idx_facts t
  funext j
  show bodyOut (F := Ideal) (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j
    = G m c (((cfg0.win 8).blk t).view.emb j)
  refine (body_at (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j).trans ?_
  have hj0 : (j 0).val < 1 := (j 0).isLt
  refine outK_congr _ _ _ _ _ _ _ ?_ ?_ ?_
  · funext n f
    show V m c main_arg0 (((cfg0.win 0).blk t).view.emb (ix3 (0 : Fin 1) n f))
      = V m c main_arg0 (ix3 ((((cfg0.win 8).blk t).view.emb j) 0) n f)
    refine congrArg _ (funext fun a => Fin.ext ?_)
    match a with
    | ⟨0, _⟩ =>
      show win0_0.index t (0 : Fin 3) * 1 + 1 * 0 = win0_8.index t (0 : Fin 3) * 1 + 1 * (j 0).val
      omega
    | ⟨1, _⟩ => show win0_0.index t (1 : Fin 3) * 2048 + 1 * n.val = n.val; omega
    | ⟨2, _⟩ => show win0_0.index t (2 : Fin 3) * 256 + 1 * f.val = f.val; omega
  · exact Fin.ext (by show (j 1).val = win0_8.index t (1 : Fin 3) * 2048 + 1 * (j 1).val; omega)
  · exact Fin.ext (by show (j 2).val = win0_8.index t (2 : Fin 3) * 256 + 1 * (j 2).val; omega)

/-! ## The eight blocks fill the array -/

theorem mem_blk (t : Fin cfg0.N) (i : S8x2048x256.Idx) :
    i ∈ ((cfg0.win 8).blk t).view.set ↔ ∀ a : Fin 3, win0_8.index t a * S1x2048x256.size a ≤ (i a).val
      ∧ (i a).val < win0_8.index t a * S1x2048x256.size a + S1x2048x256.size a := by
  show i ∈ ((View.whole main_v0).slice (win0_8.rect t)).set ↔ _
  rw [View.set_slice_whole, Rect.mem_set_unit]
  exact Iff.rfl

theorem cover (i : S8x2048x256.Idx) :
    ∃ t : Fin cfg0.N, (cfg0.win 8).flush t = true ∧ i ∈ ((cfg0.win 8).blk t).view.set := by
  obtain ⟨t, ht⟩ := idx_onto (i 0)
  have q0 : win0_8.index t (0 : Fin 3) = (i 0).val := congrFun ht 0
  have q1 : win0_8.index t (1 : Fin 3) = 0 := congrFun ht 1
  have q2 : win0_8.index t (2 : Fin 3) = 0 := congrFun ht 2
  have h1 : (i 1).val < 2048 := (i 1).isLt
  have h2 : (i 2).val < 256 := (i 2).isLt
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 2048 ≤ (i 1).val ∧ (i 1).val < win0_8.index t (1 : Fin 3) * 2048 + 2048; omega
  | ⟨2, _⟩ => show win0_8.index t (2 : Fin 3) * 256 ≤ (i 2).val ∧ (i 2).val < win0_8.index t (2 : Fin 3) * 256 + 256; omega

/-- THE ARRAY after the run: the layer of the argument arrays. -/
theorem final (c : Dev nD) : (dats m 0 c).arrAt 8 cfg0.N = G m c :=
  (dats m 0 c).arrAt_eq_of_cover 8 (G m c) (fun t _ => flushed_eq m c t) (cover)

/-- The kernel's run at the exact values: the result array ends at the layer of the argument arrays, the arguments
    unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.ArrValue

end
-- ==== Proof.RefValue.lean ====
import proofs.«159826_j36816459661845_1_alg».proof.Proof.Gen.ReferenceIdeal.Read
import proofs.«159826_j36816459661845_1_alg».proof.Proof.Spec

noncomputable section

namespace Tmd.Ref

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-! ## Two facts about extended reals

The word of the float one denotes the extended real one, and a quotient by one is the dividend: for every extended
real, the infinities included, since the inverse of one is one. -/

theorem one_f32 : Ideal.ofBits .f32 0x3F800000#32 = 1 := by
  simp [Ideal.ofBits, Ideal.ieee, -EReal.coe_mul]; norm_num

theorem div_one (y : EReal) : Ideal.div y 1 = y := by
  unfold Ideal.div
  rw [if_neg one_ne_zero, inv_one, mul_one]

/-! ## The index maps of the layout operations, at an index given by its coordinates -/

section indices
variable (b : Fin 8) (n m : Fin 2048) (l : Fin 16) (f : Fin 256)

theorem lidx0 (k : Fin 256) : lidx_main_v0 (ix3 b n l) k = ix3 b n k := by
  funext a; match a with | ⟨0, _⟩ => rfl | ⟨1, _⟩ => rfl | ⟨2, _⟩ => rfl
theorem ridx0 (k : Fin 256) : ridx_main_v0 (ix3 b n l) k = ix2 l k := by
  funext a; match a with | ⟨0, _⟩ => rfl | ⟨1, _⟩ => rfl
theorem idx12 : idx_main_v1 (idx_main_v2 (ix3 b n l)) = ix1 l := by
  funext a; match a with | ⟨0, _⟩ => rfl
theorem idx5 (k : Fin 16) : idx_main_v5 (ix2 b n) k = ix3 b n k := by
  funext a; match a with | ⟨0, _⟩ => rfl | ⟨1, _⟩ => rfl | ⟨2, _⟩ => rfl
theorem lidx6 (k : Fin 16) : lidx_main_v6 (ix3 b n m) k = ix3 b n k := by
  funext a; match a with | ⟨0, _⟩ => rfl | ⟨1, _⟩ => rfl | ⟨2, _⟩ => rfl
theorem ridx6 (k : Fin 16) : ridx_main_v6 (ix3 b n m) k = ix3 b m k := by
  funext a; match a with | ⟨0, _⟩ => rfl | ⟨1, _⟩ => rfl | ⟨2, _⟩ => rfl
theorem idx79 : idx_main_v7 (idx_main_v9 (ix3 b n m)) = ix2 b n := by
  funext a; match a with | ⟨0, _⟩ => rfl | ⟨1, _⟩ => rfl
theorem idx810 : idx_main_v8 (idx_main_v10 (ix3 b n m)) = ix2 b m := by
  funext a; match a with | ⟨0, _⟩ => rfl | ⟨1, _⟩ => rfl
theorem idx21 (k : Fin 2048) : idx_main_v21 (ix2 b n) k = ix3 b n k := by
  funext a; match a with | ⟨0, _⟩ => rfl | ⟨1, _⟩ => rfl | ⟨2, _⟩ => rfl
theorem lidx22 (k : Fin 16) : lidx_main_v22 (ix3 b n f) k = ix3 b n k := by
  funext a; match a with | ⟨0, _⟩ => rfl | ⟨1, _⟩ => rfl | ⟨2, _⟩ => rfl
theorem ridx22 (k : Fin 16) : ridx_main_v22 (ix3 b n f) k = ix2 f k := by
  funext a; match a with | ⟨0, _⟩ => rfl | ⟨1, _⟩ => rfl
theorem idx2324 : idx_main_v23 (idx_main_v24 (ix3 b n f)) = ix1 f := by
  funext a; match a with | ⟨0, _⟩ => rfl
theorem lidx27 (k : Fin 256) : lidx_main_v27 (ix3 b n (0 : Fin 1)) k = ix3 b n k := by
  funext a; match a with | ⟨0, _⟩ => rfl | ⟨1, _⟩ => rfl | ⟨2, _⟩ => rfl
theorem ridx27 (k : Fin 256) : ridx_main_v27 (ix3 b n (0 : Fin 1)) k = ix2 (0 : Fin 1) k := by
  funext a; match a with | ⟨0, _⟩ => rfl | ⟨1, _⟩ => rfl
theorem idx2829 : idx_main_v28 (idx_main_v29 (ix3 b n (0 : Fin 1))) = ix1 (0 : Fin 1) := by
  funext a; match a with | ⟨0, _⟩ => rfl
theorem idx37 : idx_main_v37 (ix2 b n) = ix3 b n (0 : Fin 1) := by
  have hb := b.isLt
  have hn := n.isLt
  funext a
  match a with
  | ⟨0, _⟩ => exact Fin.ext (by show (b.val * 2048 + n.val) / 2048 = b.val; omega)
  | ⟨1, _⟩ => exact Fin.ext (by show (b.val * 2048 + n.val) / 1 % 2048 = n.val; omega)
  | ⟨2, _⟩ => rfl
theorem idx3940 : idx_main_v39 (idx_main_v40 (ix3 b n m)) = ix2 b m := by
  funext a; match a with | ⟨0, _⟩ => rfl | ⟨1, _⟩ => rfl
theorem idx42 (k : Fin 2048) : idx_main_v42 (ix2 b n) k = ix3 b n k := by
  funext a; match a with | ⟨0, _⟩ => rfl | ⟨1, _⟩ => rfl | ⟨2, _⟩ => rfl
theorem idx4546 : idx_main_v45 (idx_main_v46 (ix3 b n m)) = ix2 b n := by
  funext a; match a with | ⟨0, _⟩ => rfl | ⟨1, _⟩ => rfl
theorem lidx48 (k : Fin 2048) : lidx_main_v48 (ix3 b n f) k = ix3 b n k := by
  funext a; match a with | ⟨0, _⟩ => rfl | ⟨1, _⟩ => rfl | ⟨2, _⟩ => rfl
theorem ridx48 (k : Fin 2048) : ridx_main_v48 (ix3 b n f) k = ix3 b k f := by
  funext a; match a with | ⟨0, _⟩ => rfl | ⟨1, _⟩ => rfl | ⟨2, _⟩ => rfl

end indices

variable (x0 : (⟨S8x2048x256, .f32⟩ : BufTy).Contents (Elt Ideal)) (x1 : (⟨S16x256, .f32⟩ : BufTy).Contents (Elt Ideal))
  (x2 : (⟨S16, .f32⟩ : BufTy).Contents (Elt Ideal)) (x3 : (⟨S256x16, .f32⟩ : BufTy).Contents (Elt Ideal))
  (x4 : (⟨S256, .f32⟩ : BufTy).Contents (Elt Ideal)) (x5 : (⟨S1x256, .f32⟩ : BufTy).Contents (Elt Ideal))
  (x6 x7 : (⟨S1, .f32⟩ : BufTy).Contents (Elt Ideal))

/-! ## The stages of the layer, each read at an index given by its coordinates -/

/-- The projection: the contraction of a row of the slab with a row of the weights, plus the bias. -/
theorem z_eq (b : Fin 8) (n : Fin 2048) (l : Fin 16) :
    val_main_v3 (F := Ideal) x0 x1 x2 (ix3 b n l) = Tmd.z (Tmd.slab x0 b) (Tmd.matPW x1) (Tmd.vecPB x2) n l := by
  rw [val_main_v3_apply, val_main_v0_apply, val_main_v2_apply, val_main_v1_apply]
  simp only [lidx0, ridx0, idx12, Ideal.addf_def]
  rfl

/-- The squared norms: the sum starts from the zero word, which is the extended real zero. -/
theorem sq_eq (b : Fin 8) (n : Fin 2048) :
    val_main_v5 (F := Ideal) x0 x1 x2 (ix2 b n) = Tmd.sq (Tmd.slab x0 b) (Tmd.matPW x1) (Tmd.vecPB x2) n := by
  rw [val_main_v5_apply]
  simp only [val_main_cst_apply, val_main_v4_apply, idx5, z_eq, Ideal.ofBits_def, Ideal.addf_def, Ideal.subf_def, Ideal.mulf_def, Ideal.maximumf_def, Ideal.hostDivf_def, Ideal.hostNegf_def, Ideal.negf_def, Ideal.hostUnary_exp_def, Ideal.ofBits_zero_f32, one_f32, div_one, zero_add]
  rfl

/-- The Gram matrix. -/
theorem gram_eq (b : Fin 8) (n m : Fin 2048) :
    val_main_v6 (F := Ideal) x0 x1 x2 (ix3 b n m) = Tmd.gram (Tmd.slab x0 b) (Tmd.matPW x1) (Tmd.vecPB x2) n m := by
  rw [val_main_v6_apply]
  simp only [lidx6, ridx6, z_eq]
  rfl

/-- The Gaussian kernel: the reference divides the negated distance by the word of one, which changes nothing. -/
theorem kern_eq (b : Fin 8) (n m : Fin 2048) :
    val_main_v20 (F := Ideal) x0 x1 x2 (ix3 b n m) = Tmd.kern (Tmd.slab x0 b) (Tmd.matPW x1) (Tmd.vecPB x2) n m := by
  simp only [val_main_v20_apply, val_main_v19_apply, val_main_v18_apply, val_main_cst_2_apply, val_main_v17_apply,
    val_main_v16_apply, val_main_v15_apply, val_main_cst_1_apply, val_main_v14_apply, val_main_v13_apply,
    val_main_v12_apply, val_main_cst_0_apply, val_main_v11_apply, val_main_v10_apply, val_main_v9_apply,
    val_main_v8_apply, val_main_v7_apply, idx79, idx810, sq_eq, gram_eq, Ideal.ofBits_def, Ideal.addf_def, Ideal.subf_def, Ideal.mulf_def, Ideal.maximumf_def, Ideal.hostDivf_def, Ideal.hostNegf_def, Ideal.negf_def, Ideal.hostUnary_exp_def, Ideal.ofBits_zero_f32, one_f32, div_one, zero_add]
  rfl

/-- The kernel's row sums. -/
theorem q_eq (b : Fin 8) (n : Fin 2048) :
    val_main_v21 (F := Ideal) x0 x1 x2 (ix2 b n) = Tmd.q (Tmd.slab x0 b) (Tmd.matPW x1) (Tmd.vecPB x2) n := by
  rw [val_main_v21_apply]
  simp only [val_main_cst_3_apply, idx21, kern_eq, Ideal.ofBits_def, Ideal.addf_def, Ideal.subf_def, Ideal.mulf_def, Ideal.maximumf_def, Ideal.hostDivf_def, Ideal.hostNegf_def, Ideal.negf_def, Ideal.hostUnary_exp_def, Ideal.ofBits_zero_f32, one_f32, div_one, zero_add]
  rfl

/-- The hidden layer after the rectifier. -/
theorem hid_eq (b : Fin 8) (n : Fin 2048) (f : Fin 256) :
    val_main_v26 (F := Ideal) x0 x1 x2 x3 x4 (ix3 b n f) = Tmd.hid (Tmd.slab x0 b) (Tmd.matPW x1) (Tmd.vecPB x2) (Tmd.matW1 x3) (Tmd.vecB1 x4) n f := by
  rw [val_main_v26_apply, val_main_v25_apply, val_main_v22_apply]
  simp only [val_main_call0_v0_apply, val_main_call0_cst_apply, val_main_v24_apply, val_main_v23_apply, lidx22, ridx22,
    idx2324, z_eq, Ideal.ofBits_def, Ideal.addf_def, Ideal.subf_def, Ideal.mulf_def, Ideal.maximumf_def, Ideal.hostDivf_def, Ideal.hostNegf_def, Ideal.negf_def, Ideal.hostUnary_exp_def, Ideal.ofBits_zero_f32, one_f32, div_one, zero_add]
  rfl

/-- The gate's logit, an array with a last axis of extent one. -/
theorem logit_eq (b : Fin 8) (n : Fin 2048) :
    val_main_v30 (F := Ideal) x0 x1 x2 x3 x4 x5 x6 (ix3 b n (0 : Fin 1)) = Tmd.logit (Tmd.slab x0 b) (Tmd.matPW x1) (Tmd.vecPB x2) (Tmd.matW1 x3) (Tmd.vecB1 x4) (Tmd.vecW2 x5) (x6 (ix1 0)) n := by
  rw [val_main_v30_apply, val_main_v27_apply]
  simp only [val_main_v29_apply, val_main_v28_apply, lidx27, ridx27, idx2829, hid_eq, Ideal.addf_def]
  rfl

/-- The sigmoid gate, after the reshape that drops the unit axis. -/
theorem piv_eq (b : Fin 8) (n : Fin 2048) :
    val_main_v37 (F := Ideal) x0 x1 x2 x3 x4 x5 x6 (ix2 b n) = Tmd.piv (Tmd.slab x0 b) (Tmd.matPW x1) (Tmd.vecPB x2) (Tmd.matW1 x3) (Tmd.vecB1 x4) (Tmd.vecW2 x5) (x6 (ix1 0)) n := by
  rw [val_main_v37_apply, idx37]
  simp only [val_main_v36_apply, val_main_v35_apply, val_main_cst_5_apply, val_main_v34_apply, val_main_v33_apply,
    val_main_cst_4_apply, val_main_v32_apply, val_main_v31_apply, logit_eq, Ideal.ofBits_def, Ideal.addf_def, Ideal.subf_def, Ideal.mulf_def, Ideal.maximumf_def, Ideal.hostDivf_def, Ideal.hostNegf_def, Ideal.negf_def, Ideal.hostUnary_exp_def, Ideal.ofBits_zero_f32, one_f32, div_one, zero_add]
  rfl

/-- The column scale. -/
theorem scale_eq (b : Fin 8) (m : Fin 2048) :
    val_main_v38 (F := Ideal) x0 x1 x2 x3 x4 x5 x6 (ix2 b m) = Tmd.scale (Tmd.slab x0 b) (Tmd.matPW x1) (Tmd.vecPB x2) (Tmd.matW1 x3) (Tmd.vecB1 x4) (Tmd.vecW2 x5) (x6 (ix1 0)) m := by
  rw [val_main_v38_apply, piv_eq, q_eq]
  rfl

/-- The column-scaled kernel. -/
theorem kt_eq (b : Fin 8) (n m : Fin 2048) :
    val_main_v41 (F := Ideal) x0 x1 x2 x3 x4 x5 x6 (ix3 b n m) = Tmd.kt (Tmd.slab x0 b) (Tmd.matPW x1) (Tmd.vecPB x2) (Tmd.matW1 x3) (Tmd.vecB1 x4) (Tmd.vecW2 x5) (x6 (ix1 0)) n m := by
  rw [val_main_v41_apply, kern_eq, val_main_v40_apply, val_main_v39_apply, idx3940, scale_eq]
  rfl

/-- Its row sums plus the regulariser. -/
theorem row_eq (b : Fin 8) (n : Fin 2048) :
    val_main_v44 (F := Ideal) x0 x1 x2 x3 x4 x5 x6 (ix2 b n) = Tmd.row (Tmd.slab x0 b) (Tmd.matPW x1) (Tmd.vecPB x2) (Tmd.matW1 x3) (Tmd.vecB1 x4) (Tmd.vecW2 x5) (x6 (ix1 0)) n := by
  rw [val_main_v44_apply, val_main_v42_apply]
  simp only [val_main_v43_apply, val_main_cst_7_apply, val_main_cst_6_apply, idx42, kt_eq, Ideal.ofBits_def, Ideal.addf_def, Ideal.subf_def, Ideal.mulf_def, Ideal.maximumf_def, Ideal.hostDivf_def, Ideal.hostNegf_def, Ideal.negf_def, Ideal.hostUnary_exp_def, Ideal.ofBits_zero_f32, one_f32, div_one, zero_add]
  rfl

/-- The kernel normalised row by row. -/
theorem nrm_eq (b : Fin 8) (n m : Fin 2048) :
    val_main_v47 (F := Ideal) x0 x1 x2 x3 x4 x5 x6 (ix3 b n m)
      = Ideal.div (Tmd.kt (Tmd.slab x0 b) (Tmd.matPW x1) (Tmd.vecPB x2) (Tmd.matW1 x3) (Tmd.vecB1 x4) (Tmd.vecW2 x5) (x6 (ix1 0)) n m) (Tmd.row (Tmd.slab x0 b) (Tmd.matPW x1) (Tmd.vecPB x2) (Tmd.matW1 x3) (Tmd.vecB1 x4) (Tmd.vecW2 x5) (x6 (ix1 0)) n) := by
  rw [val_main_v47_apply, kt_eq, val_main_v46_apply, val_main_v45_apply, idx4546, row_eq]
  rfl

/-- The product of the normalised kernel with the slab. -/
theorem prod_eq (b : Fin 8) (n : Fin 2048) (f : Fin 256) :
    val_main_v48 (F := Ideal) x0 x1 x2 x3 x4 x5 x6 (ix3 b n f)
      = ∑ m : Fin 2048, Ideal.div (Tmd.kt (Tmd.slab x0 b) (Tmd.matPW x1) (Tmd.vecPB x2) (Tmd.matW1 x3) (Tmd.vecB1 x4) (Tmd.vecW2 x5) (x6 (ix1 0)) n m) (Tmd.row (Tmd.slab x0 b) (Tmd.matPW x1) (Tmd.vecPB x2) (Tmd.matW1 x3) (Tmd.vecB1 x4) (Tmd.vecW2 x5) (x6 (ix1 0)) n) * x0 (ix3 b m f) := by
  rw [val_main_v48_apply]
  simp only [lidx48, ridx48, nrm_eq]

/-- The step size: the one element of a one-element vector, read as a scalar. Both shapes have a single row-major
    position. -/
theorem dt_eq (j : S_.Idx) : val_main_v52 (F := Ideal) x7 j = x7 (ix1 (0 : Fin 1)) := by
  unfold val_main_v52
  refine shapeCast_apply x7 shapeCasts_S1_S_ j (ix1 (0 : Fin 1)) ?_
  rw [Shape.rowMajor_val_one]
  have h := (S_.rowMajor j).isLt
  have h1 : S_.numel = 1 := by decide
  show 0 = _
  omega

/-- The whole layer at an index given by its coordinates. -/
theorem result_at (b : Fin 8) (n : Fin 2048) (f : Fin 256) :
    val_main_v55 (F := Ideal) x0 x1 x2 x3 x4 x5 x6 x7 (ix3 b n f)
      = Tmd.outR (Tmd.slab x0 b) (Tmd.matPW x1) (Tmd.vecPB x2) (Tmd.matW1 x3) (Tmd.vecB1 x4) (Tmd.vecW2 x5) (x6 (ix1 0)) (x7 (ix1 0)) n f := by
  rw [val_main_v55_apply, val_main_v54_apply, val_main_v53_apply, dt_eq, val_main_v51_apply, val_main_v50_apply,
    val_main_v49_apply, val_main_cst_8_apply, prod_eq]
  rfl

end Tmd.Ref

/-- THE REFERENCE'S RESULT: the layer with the kernel normalised row by row before the product with the slab. -/
theorem Tmd.Ref.result_eq (x0 : Cert.ReferenceIdeal.S8x2048x256.Idx → EReal) (x1 : Cert.ReferenceIdeal.S16x256.Idx → EReal)
    (x2 : Cert.ReferenceIdeal.S16.Idx → EReal) (x3 : Cert.ReferenceIdeal.S256x16.Idx → EReal)
    (x4 : Cert.ReferenceIdeal.S256.Idx → EReal) (x5 : Cert.ReferenceIdeal.S1x256.Idx → EReal)
    (x6 x7 : Cert.ReferenceIdeal.S1.Idx → EReal) :
    Cert.ReferenceIdeal.Read.val_main_v55 (F := Idealize.ShloMosaic.Ideal) x0 x1 x2 x3 x4 x5 x6 x7
      = Tmd.arrR x0 x1 x2 x3 x4 x5 x6 x7 := by
  funext i
  obtain ⟨b, n, f, rfl⟩ : ∃ b n f, i = Idealize.ShloMosaic.ValueIdx.ix3 b n f :=
    ⟨i 0, i 1, i 2, Idealize.ShloMosaic.ValueIdx.eq_ix3 i⟩
  exact Tmd.Ref.result_at x0 x1 x2 x3 x4 x5 x6 x7 b n f

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«159826_j36816459661845_1_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.Algebra.lean ====
/-
  The two spellings of the diffusion-map layer agree once every argument entry is a real number.

  The spellings differ in one place: the quotient (∑ₘ k̃(n,m)·x(m,f)) / row n against the sum ∑ₘ (k̃(n,m) / row n)·x(m,f).
  On the extended reals a quotient by a POSITIVE REAL r is the product with the non-negative real 1/r, and a non-negative
  real factor distributes over a finite sum whatever the summands; so the two agree as soon as row n is a positive real.
  That is what the finiteness of the arguments buys: z, ‖z‖², ⟨z,z'⟩ and the clamped distance are real; the Gaussian
  kernel is the exponential of a real, hence a positive real; its row sums are positive reals; the sigmoid gate
  1/(1 + exp(-logit)) is a positive real; so is the column scale π/q, the scaled kernel k̃, and at last the row sum of k̃
  plus the positive real ε.
-/
import proofs.«159826_j36816459661845_1_alg».proof.Proof.Spec
import proofs.«159826_j36816459661845_1_alg».proof.Proof.LibIdealFinite
import proofs.«159826_j36816459661845_1_alg».proof.Proof.LibMaskSums

noncomputable section

namespace Tmd

open Idealize.ShloMosaic LibERealMatrix LibIdealFinite

/-! ### The one law -/

/-- A quotient of a finite sum of products by a positive real is the sum of the products with the quotients, whatever the
    summands (infinite ones included): the quotient is the product with the non-negative real 1/r. -/
theorem sum_mul_div_pos_real {ι : Type*} [Fintype ι] (a x : ι → EReal) {r : ℝ} (hr : 0 < r) :
    Ideal.div (∑ m, a m * x m) (r : EReal) = ∑ m, Ideal.div (a m) (r : EReal) * x m := by
  simp only [Ideal.div_coe hr.ne']
  rw [← LibMaskSums.sum_mul_coe_of_nonneg _ _ _ (by positivity : (0 : ℝ) ≤ 1 / r)]
  exact Finset.sum_congr rfl fun m _ => mul_right_comm _ _ _

/-! ### The constants -/

theorem fin_one : Fin' (1 : EReal) := by
  have h := Fin'.coe 1
  rwa [EReal.coe_one] at h

/-- The word 0x40000000 denotes the real 2. -/
theorem two_eq : two = ((2 : ℝ) : EReal) := by
  simp [two, Ideal.ofBits, Ideal.ieee, -EReal.coe_mul]; norm_num

theorem fin_two : Fin' two := by rw [two_eq]; exact Fin'.coe _

theorem fin_eps : Fin' eps := by
  obtain ⟨r, _, hr⟩ := ofBits_1em5_pos
  show Fin' (Ideal.ofBits .f32 0x3727C5AC#32)
  rw [hr]; exact Fin'.coe _

theorem eps_pos : 0 < eps := by
  obtain ⟨r, h0, hr⟩ := ofBits_1em5_pos
  show 0 < Ideal.ofBits .f32 0x3727C5AC#32
  rw [hr]; exact EReal.coe_pos.mpr h0

/-! ### Every stage of the layer is real; the kernel stages are positive -/

section finite

variable {X : Fin 2048 → Fin 256 → EReal} {PW : Fin 16 → Fin 256 → EReal} {PB : Fin 16 → EReal}
  {W1 : Fin 256 → Fin 16 → EReal} {B1 : Fin 256 → EReal} {W2 : Fin 256 → EReal} {B2 : EReal}

theorem fin_z (hX : ∀ n f, Fin' (X n f)) (hPW : ∀ l f, Fin' (PW l f)) (hPB : ∀ l, Fin' (PB l))
    (n : Fin 2048) (l : Fin 16) : Fin' (z X PW PB n l) :=
  Fin'.add (Fin'.sum _ _ fun f => Fin'.mul (hX n f) (hPW l f)) (hPB l)

theorem fin_sq (hX : ∀ n f, Fin' (X n f)) (hPW : ∀ l f, Fin' (PW l f)) (hPB : ∀ l, Fin' (PB l))
    (n : Fin 2048) : Fin' (sq X PW PB n) :=
  Fin'.sum _ _ fun l => Fin'.mul (fin_z hX hPW hPB n l) (fin_z hX hPW hPB n l)

theorem fin_gram (hX : ∀ n f, Fin' (X n f)) (hPW : ∀ l f, Fin' (PW l f)) (hPB : ∀ l, Fin' (PB l))
    (n m : Fin 2048) : Fin' (gram X PW PB n m) :=
  Fin'.sum _ _ fun l => Fin'.mul (fin_z hX hPW hPB n l) (fin_z hX hPW hPB m l)

theorem fin_d2 (hX : ∀ n f, Fin' (X n f)) (hPW : ∀ l f, Fin' (PW l f)) (hPB : ∀ l, Fin' (PB l))
    (n m : Fin 2048) : Fin' (d2 X PW PB n m) :=
  fin_max (fin_sub (Fin'.add (fin_sq hX hPW hPB n) (fin_sq hX hPW hPB m)) (Fin'.mul fin_two (fin_gram hX hPW hPB n m)))
    fin_zero

/-- The Gaussian kernel is a positive real. -/
theorem fin_kern (hX : ∀ n f, Fin' (X n f)) (hPW : ∀ l f, Fin' (PW l f)) (hPB : ∀ l, Fin' (PB l))
    (n m : Fin 2048) : Fin' (kern X PW PB n m) ∧ 0 < kern X PW PB n m :=
  fin_exp (fin_neg (fin_d2 hX hPW hPB n m))

/-- A sum over a non-empty index set of positive extended reals is positive. -/
theorem sum_pos_of_pos {ι : Type*} [Fintype ι] [Nonempty ι] (g : ι → EReal) (h : ∀ i, 0 < g i) : 0 < ∑ i, g i :=
  lt_of_lt_of_le (h (Classical.arbitrary ι))
    (Finset.single_le_sum (fun i _ => (h i).le) (Finset.mem_univ (Classical.arbitrary ι)))

/-- The kernel's row sums are positive reals. -/
theorem fin_q (hX : ∀ n f, Fin' (X n f)) (hPW : ∀ l f, Fin' (PW l f)) (hPB : ∀ l, Fin' (PB l))
    (n : Fin 2048) : Fin' (q X PW PB n) ∧ 0 < q X PW PB n :=
  ⟨Fin'.sum _ _ fun m => (fin_kern hX hPW hPB n m).1, sum_pos_of_pos _ fun m => (fin_kern hX hPW hPB n m).2⟩

theorem fin_hid (hX : ∀ n f, Fin' (X n f)) (hPW : ∀ l f, Fin' (PW l f)) (hPB : ∀ l, Fin' (PB l))
    (hW1 : ∀ f l, Fin' (W1 f l)) (hB1 : ∀ f, Fin' (B1 f)) (n : Fin 2048) (f : Fin 256) :
    Fin' (hid X PW PB W1 B1 n f) :=
  fin_max (Fin'.add (Fin'.sum _ _ fun l => Fin'.mul (fin_z hX hPW hPB n l) (hW1 f l)) (hB1 f)) fin_zero

theorem fin_logit (hX : ∀ n f, Fin' (X n f)) (hPW : ∀ l f, Fin' (PW l f)) (hPB : ∀ l, Fin' (PB l))
    (hW1 : ∀ f l, Fin' (W1 f l)) (hB1 : ∀ f, Fin' (B1 f)) (hW2 : ∀ f, Fin' (W2 f)) (hB2 : Fin' B2) (n : Fin 2048) :
    Fin' (logit X PW PB W1 B1 W2 B2 n) :=
  Fin'.add (Fin'.sum _ _ fun f => Fin'.mul (fin_hid hX hPW hPB hW1 hB1 n f) (hW2 f)) hB2

/-- The sigmoid gate is a positive real: its denominator 1 + exp(-logit) is. -/
theorem fin_piv (hX : ∀ n f, Fin' (X n f)) (hPW : ∀ l f, Fin' (PW l f)) (hPB : ∀ l, Fin' (PB l))
    (hW1 : ∀ f l, Fin' (W1 f l)) (hB1 : ∀ f, Fin' (B1 f)) (hW2 : ∀ f, Fin' (W2 f)) (hB2 : Fin' B2) (n : Fin 2048) :
    Fin' (piv X PW PB W1 B1 W2 B2 n) ∧ 0 < piv X PW PB W1 B1 W2 B2 n := by
  have he := fin_exp (fin_neg (fin_logit hX hPW hPB hW1 hB1 hW2 hB2 n))
  have hd : Fin' (1 + Ideal.exp (-(logit X PW PB W1 B1 W2 B2 n))) := Fin'.add fin_one he.1
  have hp : 0 < 1 + Ideal.exp (-(logit X PW PB W1 B1 W2 B2 n)) := add_pos_of_nonneg_of_pos' zero_le_one he.2
  exact ⟨fin_div fin_one hd hp.ne', div_pos_of_fin fin_one hd zero_lt_one hp⟩

/-- The column scale π/q is a positive real. -/
theorem fin_scale (hX : ∀ n f, Fin' (X n f)) (hPW : ∀ l f, Fin' (PW l f)) (hPB : ∀ l, Fin' (PB l))
    (hW1 : ∀ f l, Fin' (W1 f l)) (hB1 : ∀ f, Fin' (B1 f)) (hW2 : ∀ f, Fin' (W2 f)) (hB2 : Fin' B2) (m : Fin 2048) :
    Fin' (scale X PW PB W1 B1 W2 B2 m) ∧ 0 < scale X PW PB W1 B1 W2 B2 m := by
  have hp := fin_piv hX hPW hPB hW1 hB1 hW2 hB2 m
  have hq := fin_q hX hPW hPB m
  exact ⟨fin_div hp.1 hq.1 hq.2.ne', div_pos_of_fin hp.1 hq.1 hp.2 hq.2⟩

/-- The column-scaled kernel is a positive real. -/
theorem fin_kt (hX : ∀ n f, Fin' (X n f)) (hPW : ∀ l f, Fin' (PW l f)) (hPB : ∀ l, Fin' (PB l))
    (hW1 : ∀ f l, Fin' (W1 f l)) (hB1 : ∀ f, Fin' (B1 f)) (hW2 : ∀ f, Fin' (W2 f)) (hB2 : Fin' B2) (n m : Fin 2048) :
    Fin' (kt X PW PB W1 B1 W2 B2 n m) ∧ 0 < kt X PW PB W1 B1 W2 B2 n m := by
  have hk := fin_kern hX hPW hPB n m
  have hs := fin_scale hX hPW hPB hW1 hB1 hW2 hB2 m
  exact ⟨Fin'.mul hk.1 hs.1, EReal.mul_pos hk.2 hs.2⟩

/-- The diagonal of D̃, the row sum of k̃ plus ε, is a positive real. -/
theorem fin_row (hX : ∀ n f, Fin' (X n f)) (hPW : ∀ l f, Fin' (PW l f)) (hPB : ∀ l, Fin' (PB l))
    (hW1 : ∀ f l, Fin' (W1 f l)) (hB1 : ∀ f, Fin' (B1 f)) (hW2 : ∀ f, Fin' (W2 f)) (hB2 : Fin' B2) (n : Fin 2048) :
    Fin' (row X PW PB W1 B1 W2 B2 n) ∧ 0 < row X PW PB W1 B1 W2 B2 n :=
  ⟨Fin'.add (Fin'.sum _ _ fun m => (fin_kt hX hPW hPB hW1 hB1 hW2 hB2 n m).1) fin_eps,
    add_pos_of_nonneg_of_pos' (Finset.sum_nonneg fun m _ => (fin_kt hX hPW hPB hW1 hB1 hW2 hB2 n m).2.le) eps_pos⟩

end finite

/-! ### The two spellings agree -/

/-- With every argument entry real (the step size DT may be anything), the quotient after the product is the product with
    the row-normalised kernel. -/
theorem outK_eq_outR (X : Fin 2048 → Fin 256 → EReal) (PW : Fin 16 → Fin 256 → EReal) (PB : Fin 16 → EReal)
    (W1 : Fin 256 → Fin 16 → EReal) (B1 : Fin 256 → EReal) (W2 : Fin 256 → EReal) (B2 DT : EReal)
    (hX : ∀ n f, Fin' (X n f)) (hPW : ∀ l f, Fin' (PW l f)) (hPB : ∀ l, Fin' (PB l)) (hW1 : ∀ f l, Fin' (W1 f l))
    (hB1 : ∀ f, Fin' (B1 f)) (hW2 : ∀ f, Fin' (W2 f)) (hB2 : Fin' B2) (n : Fin 2048) (f : Fin 256) :
    outK X PW PB W1 B1 W2 B2 DT n f = outR X PW PB W1 B1 W2 B2 DT n f := by
  have hrow := fin_row hX hPW hPB hW1 hB1 hW2 hB2 n
  obtain ⟨r, hr, hre⟩ := fin_exists_pos_real hrow.1 hrow.2
  unfold outK outR
  rw [hre, sum_mul_div_pos_real _ _ hr]

section arrays
open Idealize.ShloMosaic.ValueIdx

/-- The whole result arrays agree when the arguments other than the step size have real entries. -/
theorem arrK_eq_arrR (x0 : (⟨3, ![8, 2048, 256]⟩ : Shape).Idx → EReal) (x1 : (⟨2, ![16, 256]⟩ : Shape).Idx → EReal)
    (x2 : (⟨1, ![16]⟩ : Shape).Idx → EReal) (x3 : (⟨2, ![256, 16]⟩ : Shape).Idx → EReal)
    (x4 : (⟨1, ![256]⟩ : Shape).Idx → EReal) (x5 : (⟨2, ![1, 256]⟩ : Shape).Idx → EReal)
    (x6 x7 : (⟨1, ![1]⟩ : Shape).Idx → EReal)
    (h0 : ∀ i, Fin' (x0 i)) (h1 : ∀ i, Fin' (x1 i)) (h2 : ∀ i, Fin' (x2 i)) (h3 : ∀ i, Fin' (x3 i))
    (h4 : ∀ i, Fin' (x4 i)) (h5 : ∀ i, Fin' (x5 i)) (h6 : ∀ i, Fin' (x6 i)) :
    arrK x0 x1 x2 x3 x4 x5 x6 x7 = arrR x0 x1 x2 x3 x4 x5 x6 x7 :=
  funext fun i =>
    outK_eq_outR (slab x0 (i 0)) (matPW x1) (vecPB x2) (matW1 x3) (vecB1 x4) (vecW2 x5) (x6 (ix1 0)) (x7 (ix1 0))
      (fun _ _ => h0 _) (fun _ _ => h1 _) (fun _ => h2 _) (fun _ _ => h3 _) (fun _ => h4 _) (fun _ => h5 _) (h6 _)
      (i 1) (i 2)

end arrays

end Tmd

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.Finite.lean ====
/-
  The precondition "every argument entry has absolute value below +∞", read back: every argument entry is a real number.

  The printed predicate takes, for each of the eight float arguments, the conjunction over all entries of the comparison
  |x_i| < +∞ (a reduction by "and" from the constant 1), and the conjunction of the eight results. That the result is 1
  says each of the eight reductions is 1, hence each comparison, hence each entry is neither infinity.
-/
import proofs.«159826_j36816459661845_1_alg».proof.Defs
import proofs.«159826_j36816459661845_1_alg».proof.Proof.LibFiniteEntries
import proofs.«159826_j36816459661845_1_alg».proof.Proof.LibERealMatrix
import Idealize.ShloMosaic.Lib.ReduceAll
import Idealize.ShloMosaic.Lib.ValueIdx

noncomputable section

namespace Tmd

open Idealize.ShloMosaic Idealize.SL.Sem LibERealMatrix

/-- An array that is the image of its real parts has real entries. -/
theorem fin_of_eq_toReal {s : Shape} (x : s.Idx → EReal) (h : x = fun i => (((x i).toReal : ℝ) : EReal)) (i : s.Idx) :
    Fin' (x i) := by
  rw [congrFun h i]; exact Fin'.coe _

open Cert.Pre_finite_inputs in
/-- The printed predicate, applied to any eight arrays and equal to 1, says every entry of every array is real. -/
theorem fin_of_fn [Cert.Pre_finite_inputs.Facts] (a0 : FVec Ideal S8x2048x256 .f32) (a1 : FVec Ideal S16x256 .f32)
    (a2 : FVec Ideal S16 .f32) (a3 : FVec Ideal S256x16 .f32) (a4 : FVec Ideal S256 .f32) (a5 : FVec Ideal S1x256 .f32)
    (a6 a7 : FVec Ideal S1 .f32)
    (h : Cert.Pre_finite_inputs.fn (F := Ideal) a0 a1 a2 a3 a4 a5 a6 a7 = fun _ => 1#1) :
    (∀ i, Fin' (a0 i)) ∧ (∀ i, Fin' (a1 i)) ∧ (∀ i, Fin' (a2 i)) ∧ (∀ i, Fin' (a3 i)) ∧ (∀ i, Fin' (a4 i))
      ∧ (∀ i, Fin' (a5 i)) ∧ (∀ i, Fin' (a6 i)) ∧ (∀ i, Fin' (a7 i)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, e1⟩, e2⟩, e3⟩, e4⟩, e5⟩, e6⟩, e7⟩ := e
  exact ⟨fin_of_eq_toReal a0 (LibFiniteEntries.real_of_all_abs_lt a0 _ (fun _ => rfl) _ _ _ _ e0),
    fin_of_eq_toReal a1 (LibFiniteEntries.real_of_all_abs_lt a1 _ (fun _ => rfl) _ _ _ _ e1),
    fin_of_eq_toReal a2 (LibFiniteEntries.real_of_all_abs_lt a2 _ (fun _ => rfl) _ _ _ _ e2),
    fin_of_eq_toReal a3 (LibFiniteEntries.real_of_all_abs_lt a3 _ (fun _ => rfl) _ _ _ _ e3),
    fin_of_eq_toReal a4 (LibFiniteEntries.real_of_all_abs_lt a4 _ (fun _ => rfl) _ _ _ _ e4),
    fin_of_eq_toReal a5 (LibFiniteEntries.real_of_all_abs_lt a5 _ (fun _ => rfl) _ _ _ _ e5),
    fin_of_eq_toReal a6 (LibFiniteEntries.real_of_all_abs_lt a6 _ (fun _ => rfl) _ _ _ _ e6),
    fin_of_eq_toReal a7 (LibFiniteEntries.real_of_all_abs_lt a7 _ (fun _ => rfl) _ _ _ _ e7)⟩

/-- The precondition of the idealized kernel says, on every device, that every entry of every argument array is real. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Fin' (m ((c.tc : Thread Cert.KernelIdeal.nD Cert.KernelIdeal.τ).loc Cert.KernelIdeal.main_arg0) i))
      ∧ (∀ i, Fin' (m ((c.tc : Thread Cert.KernelIdeal.nD Cert.KernelIdeal.τ).loc Cert.KernelIdeal.main_arg1) i))
      ∧ (∀ i, Fin' (m ((c.tc : Thread Cert.KernelIdeal.nD Cert.KernelIdeal.τ).loc Cert.KernelIdeal.main_arg2) i))
      ∧ (∀ i, Fin' (m ((c.tc : Thread Cert.KernelIdeal.nD Cert.KernelIdeal.τ).loc Cert.KernelIdeal.main_arg3) i))
      ∧ (∀ i, Fin' (m ((c.tc : Thread Cert.KernelIdeal.nD Cert.KernelIdeal.τ).loc Cert.KernelIdeal.main_arg4) i))
      ∧ (∀ i, Fin' (m ((c.tc : Thread Cert.KernelIdeal.nD Cert.KernelIdeal.τ).loc Cert.KernelIdeal.main_arg5) i))
      ∧ (∀ i, Fin' (m ((c.tc : Thread Cert.KernelIdeal.nD Cert.KernelIdeal.τ).loc Cert.KernelIdeal.main_arg6) i))
      ∧ (∀ i, Fin' (m ((c.tc : Thread Cert.KernelIdeal.nD Cert.KernelIdeal.τ).loc Cert.KernelIdeal.main_arg7) i)) :=
  fin_of_fn _ _ _ _ _ _ _ _ (h c)

end Tmd

end
-- ==== Proof.lean ====
/-
  The certificate of the diffusion-map layer: a Pallas kernel that, batch by batch, projects x to z, accumulates the Gaussian
  kernel's row sums and the gate-scaled kernel's product with x over column tiles of 256 in two loops through scratch
  buffers, and divides the accumulated product by the accumulated row sum — against the jnp reference that normalises the
  scaled kernel's rows first and multiplies by x afterwards.

  The three programs run (the generated frames; the reference's is its generated run with the result dropped); the ideal pass
  rewrote nothing, so the idealization conjunct is trivial.  At the exact values the kernel's result array is the layer with
  the quotient after the product (Proof/KernelLoops.lean: the body as a pure function through its two loops; Proof/KernelPay.lean
  and Proof/KernelMath.lean: that function index by index, a sum over 2048 columns taken in 8 tiles of 256;
  Proof/KernelValue.lean: the eight batch blocks fill the array), the reference's is the layer with the rows normalised first
  (Proof/RefValue.lean), and the two agree because every row sum is a positive real once the inputs are finite
  (Proof/Algebra.lean; Proof/Finite.lean reads the finiteness off the precondition): a quotient by a positive real is a
  product with a non-negative real, which distributes over any finite sum of extended reals.
-/
import proofs.«159826_j36816459661845_1_alg».proof.Defs
import proofs.«159826_j36816459661845_1_alg».proof.Proof.Gen.Kernel
import proofs.«159826_j36816459661845_1_alg».proof.Proof.Gen.Kernel.Frame
import proofs.«159826_j36816459661845_1_alg».proof.Proof.Gen.KernelIdeal
import proofs.«159826_j36816459661845_1_alg».proof.Proof.Gen.KernelIdeal.Frame
import proofs.«159826_j36816459661845_1_alg».proof.Proof.Gen.ReferenceIdeal
import proofs.«159826_j36816459661845_1_alg».proof.Proof.Gen.ReferenceIdeal.Run
import proofs.«159826_j36816459661845_1_alg».proof.Proof.Gen.ReferenceIdeal.Read
import proofs.«159826_j36816459661845_1_alg».proof.Proof.Gen.Pre_finite_inputs
import proofs.«159826_j36816459661845_1_alg».proof.Proof.KernelValue
import proofs.«159826_j36816459661845_1_alg».proof.Proof.RefValue
import proofs.«159826_j36816459661845_1_alg».proof.Proof.Algebra
import proofs.«159826_j36816459661845_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the layer of the shared arguments: the kernel's with the quotient after the product, the
    reference's with the rows normalised first; finite inputs make the row sums positive reals, and then the two agree. -/
theorem algebraic : Cert.algebraic_KernelIdeal_ReferenceIdeal := by
  intro m ρ m' ρ' hpre hagree
  refine ⟨fun c => Cert.KernelIdeal.ArrValue.G m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Tmd.Ref.result_eq]
  obtain ⟨a0, a1, a2, a3, a4, a5, a6, a7⟩ := hagree c
  rw [a0, a1, a2, a3, a4, a5, a6, a7]
  obtain ⟨h0, h1, h2, h3, h4, h5, h6, -⟩ := Tmd.finite_of_pre m hpre c
  exact (Tmd.arrK_eq_arrR _ _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
